-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000x64 : Shape := ⟨2, ![100000, 64]⟩
abbrev S50000x64 : Shape := ⟨2, ![50000, 64]⟩
abbrev S4096 : Shape := ⟨1, ![4096]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S3200000 32) (main_arg1 : IVec S3200000 32) (main_arg2 : FVec F S3200000 .f32) (main_arg3 : FVec F S100000x64 .f32) (main_arg4 : FVec F S50000x64 .f32) (main_arg5 : IVec S4096 32) (main_arg6 : IVec S4096 32) (main_arg7 : IVec S4096 32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg4
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S3200000 : Shape := ⟨1, ![3200000]⟩
abbrev S100000x64 : Shape := ⟨2, ![100000, 64]⟩
abbrev S50000x64 : Shape := ⟨2, ![50000, 64]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S5000x64 : Shape := ⟨2, ![5000, 64]⟩
abbrev S4096x1 : Shape := ⟨2, ![4096, 1]⟩
abbrev S4096x64 : Shape := ⟨2, ![4096, 64]⟩
abbrev S1x1 : Shape := ⟨2, ![1, 1]⟩
abbrev S512x64 : Shape := ⟨2, ![512, 64]⟩
abbrev S512 : Shape := ⟨1, ![512]⟩
abbrev S512x1 : Shape := ⟨2, ![512, 1]⟩
abbrev S1 : Shape := ⟨1, ![1]⟩

abbrev nBuf : Space → Nat
  | .hbm => 89
  | .vmem => 18
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S50000x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S150000x64, .f32⟩
  | .hbm, ⟨23, _⟩ => ⟨S3200000x1, .i32⟩
  | .hbm, ⟨24, _⟩ => ⟨S150000x64, .f32⟩
  | .hbm, ⟨25, _⟩ => ⟨S3200000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x64, .f32⟩
  | .hbm, ⟨35, _⟩ => ⟨S3200000x64, .f32⟩
  | .hbm, ⟨36, _⟩ => ⟨S3200000x64, .f32⟩
  | .hbm, ⟨37, _⟩ => ⟨S_, .f32⟩
  | .hbm, ⟨38, _⟩ => ⟨S150000x64, .f32⟩
  | .hbm, ⟨39, _⟩ => ⟨S3200000x1, .i32⟩
  | .hbm, ⟨40, _⟩ => ⟨S150000x64, .f32⟩
  | .hbm, ⟨41, _⟩ => ⟨S3200000x1, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x64, .f32⟩
  | .hbm, ⟨51, _⟩ => ⟨S3200000x64, .f32⟩
  | .hbm, ⟨52, _⟩ => ⟨S3200000x64, .f32⟩
  | .hbm, ⟨53, _⟩ => ⟨S_, .f32⟩
  | .hbm, ⟨54, _⟩ => ⟨S150000x64, .f32⟩
  | .hbm, ⟨55, _⟩ => ⟨S3200000x1, .i32⟩
  | .hbm, ⟨56, _⟩ => ⟨S150000x64, .f32⟩
  | .hbm, ⟨57, _⟩ => ⟨S150000x64, .f32⟩
  | .hbm, ⟨58, _⟩ => ⟨S100000x64, .f32⟩
  | .hbm, ⟨59, _⟩ => ⟨S50000x64, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x64, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x64, .f32⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S4096, .i32⟩
  | .hbm, ⟨85, _⟩ => ⟨S4096x1, .i32⟩
  | .hbm, ⟨86, _⟩ => ⟨S4096x64, .f32⟩
  | .hbm, ⟨87, _⟩ => ⟨S1x1, .f32⟩
  | .hbm, ⟨88, _⟩ => ⟨S_, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S1x1, .f32⟩
  | .local _ .vmem, ⟨17, _⟩ => ⟨S1x1, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_14 : BitVec 32 := 0#32
  let v39 : BitVec 1 := Scalar.cmpi .ne v38 c0_i32_14
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S150000x64.size a
  hwx0_2 : ∀ i : grid0.Coords, EltTy.bits .f32 = 32 ∨ (Rect.block (s := S150000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S150000x64.size a
  hwx0_3 : ∀ i : grid0.Coords, EltTy.bits .f32 = 32 ∨ (Rect.block (s := S150000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S4096x64.size a
  hwx1_0 : ∀ i : grid1.Coords, EltTy.bits .f32 = 32 ∨ (Rect.block (s := S4096x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .f32 = 32 ∨ (Rect.block (s := S4096x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S4096x64.size a
  hwx1_2 : ∀ i : grid1.Coords, EltTy.bits .f32 = 32 ∨ (Rect.block (s := S4096x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v49) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S3200000 : Shape := ⟨1, ![3200000]⟩
abbrev S100000x64 : Shape := ⟨2, ![100000, 64]⟩
abbrev S50000x64 : Shape := ⟨2, ![50000, 64]⟩
abbrev S4096 : Shape := ⟨1, ![4096]⟩
abbrev S150000x64 : Shape := ⟨2, ![150000, 64]⟩
abbrev S3200000x1 : Shape := ⟨2, ![3200000, 1]⟩
abbrev S_ : Shape := ⟨0, ![]⟩
abbrev S3200000x64 : Shape := ⟨2, ![3200000, 64]⟩
abbrev S4096x1 : Shape := ⟨2, ![4096, 1]⟩
abbrev S4096x64 : Shape := ⟨2, ![4096, 64]⟩

abbrev nBuf : Space → Nat
  | .hbm => 117
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S3200000, .f32⟩
  | .hbm, ⟨3, _⟩ => ⟨S100000x64, .f32⟩
  | .hbm, ⟨4, _⟩ => ⟨S50000x64, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S150000x64, .f32⟩
  | .hbm, ⟨23, _⟩ => ⟨S3200000x1, .i32⟩
  | .hbm, ⟨24, _⟩ => ⟨S150000x64, .f32⟩
  | .hbm, ⟨25, _⟩ => ⟨S150000x64, .f32⟩
  | .hbm, ⟨26, _⟩ => ⟨S3200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S150000x64, .f32⟩
  | .hbm, ⟨40, _⟩ => ⟨S3200000x1, .i32⟩
  | .hbm, ⟨41, _⟩ => ⟨S150000x64, .f32⟩
  | .hbm, ⟨42, _⟩ => ⟨S150000x64, .f32⟩
  | .hbm, ⟨43, _⟩ => ⟨S3200000x1, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S150000x64, .f32⟩
  | .hbm, ⟨57, _⟩ => ⟨S3200000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | .hbm, ⟨92, _⟩ => ⟨S4096x64, .f32⟩
  | .hbm, ⟨93, _⟩ => ⟨S_, .f32⟩
  | .hbm, ⟨94, _⟩ => ⟨S4096, .f32⟩
  | .hbm, ⟨95, _⟩ => ⟨S4096x64, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S4096, .f32⟩
  | .hbm, ⟨103, _⟩ => ⟨S4096, .f32⟩
  | .hbm, ⟨104, _⟩ => ⟨S4096, .i1⟩
  | .hbm, ⟨105, _⟩ => ⟨S4096, .f32⟩
  | .hbm, ⟨106, _⟩ => ⟨S4096, .f32⟩
  | .hbm, ⟨107, _⟩ => ⟨S4096, .f32⟩
  | .hbm, ⟨108, _⟩ => ⟨S4096, .f32⟩
  | .hbm, ⟨109, _⟩ => ⟨S4096, .f32⟩
  | .hbm, ⟨110, _⟩ => ⟨S4096, .f32⟩
  | .hbm, ⟨111, _⟩ => ⟨S4096, .f32⟩
  | .hbm, ⟨112, _⟩ => ⟨S4096, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_v73 : Ref sig .tc := ⟨.hbm, 112, rfl⟩
abbrev main_cst_16 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.K.Core.lean ====
/-
  The loss kernel's arithmetic, stated once over whole [4096, 64] operands: the block of rows a grid point sees, the
  running accumulator after each point (the zero the first point stores, then one block sum added per point), and the
  final scaling. These are the functions both the frame proof (what the scratch holds after each point) and the value
  proof (what the result equals) are written over.
-/
import proofs.«160565_j73220602462343_1_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- The averaging kernel over whole [150000, 64] arrays: ((x0 + x1) + x2 + x3) · 0.25, entry by entry. -/
def light4 (x0 x1 x2 x3 : Vec F S150000x64 .f32) : Vec F S150000x64 .f32 :=
  mulf (addf (addf (addf (x0 : FVec F S150000x64 .f32) x1) x2) x3) (broadcast S150000x64 (Scalar.ofBits .f32 0x3E800000#32 : F .f32))

/-- Rows 512·t … 512·t + 511 of a [4096, 64] array: the block grid point t is handed. -/
def rowsBlock (x : Vec F S4096x64 .f32) (t : ℕ) (ht : t < 8) : Vec F S512x64 .f32 :=
  fun y => x (ix2 (⟨512 * t + (y 0).val, by have := idx2_lt0 y; omega⟩ : Fin 4096) (⟨(y 1).val, idx2_lt1 y⟩ : Fin 64))

/-- The accumulator after the first k grid points: zero, then per point the block's sum of softplus(neg − pos) added. -/
def accUpTo (u p n : Vec F S4096x64 .f32) : (k : ℕ) → k ≤ 8 → Vec F S1x1 .f32
  | 0, _ => k1_pay2
  | k + 1, h => k1_pay3 (rowsBlock u k (by omega)) (rowsBlock p k (by omega)) (rowsBlock n k (by omega)) (accUpTo u p n k (by omega))

/-- What the last point writes to the [1, 1] output: the accumulator after all eight points times 2^-12. -/
def lossBlock (u p n : Vec F S4096x64 .f32) : Vec F S1x1 .f32 := k1_pay1 (accUpTo u p n 8 le_rfl)

end Cert.Kernel.Hand

end
-- ==== Proof.K.Sum4.lean ====
/-
  Region 0 of the program: the averaging kernel, run by the pipeline over a grid of 30 points. Each point sees rows
  5000·t … 5000·t + 4999 of four [150000, 64] arrays and writes the same rows of the result. Everything here is stated
  at a parameter V, the contents of the core's buffers when the region is entered.

  The kernel's body reads its four input blocks whole, reads the output block once (the value is not used), and
  stores ((x0 + x1) + x2 + x3) · 0.25 over the whole output block. So after the body the four input buffers are as
  they were, and the output buffer holds the single stored piece. The proof data records exactly this, and the body
  obligation is the body's triple put in the shape the pipeline's loop asks for.
-/
import proofs.«160565_j73220602462343_1_alg».proof.Proof.Gen.Kernel.Launch
import proofs.«160565_j73220602462343_1_alg».proof.Proof.Gen.Kernel.Skeleton
import proofs.«160565_j73220602462343_1_alg».proof.Proof.Gen.Kernel.Points
import proofs.«160565_j73220602462343_1_alg».proof.Proof.K.Core
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the points see -/

/-- The block of window w at point t: the rows of w's array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the four inputs is fetched at every point and never written by the body, so whatever proof data has the
    entry contents as its arrays and leaves an input's block in place has, before the body at every point, that input's
    current staging buffer at the point's block. One statement per input window. -/

theorem in0_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem in1_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem in2_before_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem in3_before_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body does to a block -/

/-- The one rectangle the body touches: the whole [5000, 64] block, from the origin. -/
abbrev wholeBlk : Rect S5000x64 := Rect.unit (s := S5000x64) ![0, 0] S5000x64.size inb_S5000x64_S5000x64_0_0

/-- The output buffer after the body, from the four input blocks: one piece, the whole block, holding the average
    of the four blocks as the body computes it from what it loaded. -/
def out0_4 (x0 x1 x2 x3 : Vec F S5000x64 .f32) : Vec F S5000x64 .f32 :=
  View.canon [⟨wholeBlk, k0_pay1 (View.ld x0 wholeBlk) (View.ld x1 wholeBlk) (View.ld x2 wholeBlk) (View.ld x3 wholeBlk)⟩]

/-- The single stored piece covers every index of the block: its extent is the block's. -/
theorem out_covered (p : Vec F S5000x64 .f32) (y : S5000x64.Idx) :
    ∃ pc ∈ ([⟨wholeBlk, p⟩] : List (View.Piece (Elt F) S5000x64 .f32)), y ∈ pc.1.set :=
  View.cover_of_tiled [⟨wholeBlk, p⟩] S5000x64.size (by rfl) y

set_option maxHeartbeats 1000000 in
/-- The body's triple on whole staging memrefs: with the four inputs at x0 … x3 and the output at anything, the body
    runs, faults nowhere, and hands its continuation the inputs unchanged and the output at out0_4 x0 x1 x2 x3. The
    body's load of the output buffer is allowed because the buffer is owned, at whatever it holds. -/
theorem sound_sum4 (c : Dev nD) (E : Set ℕ) (i : grid0.Coords)
    (a0 : Memref sig .tc .vmem S5000x64 .f32) (ha0 : a0.IsWhole) (a1 : Memref sig .tc .vmem S5000x64 .f32) (ha1 : a1.IsWhole)
    (a2 : Memref sig .tc .vmem S5000x64 .f32) (ha2 : a2.IsWhole) (a3 : Memref sig .tc .vmem S5000x64 .f32) (ha3 : a3.IsWhole)
    (o : Memref sig .tc .vmem S5000x64 .f32) (ho : o.IsWhole)
    (x0 x1 x2 x3 : Vec F S5000x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) o fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) o fullShare (out0_4 x0 x1 x2 x3)) -∗ K ⟨⟩))
      ⊢ wp frame (wpE (defs₀ (F := F)) Variants.none c none) E (cc0__sum4_kernel i a0 ha0 a1 ha1 a2 ha2 a3 ha3 o ho) K := by
  simp only [cc0__sum4_kernel_eq_skeleton]; unfold cc0__sum4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out_covered _)

/-! ## The proof data of the region -/

/-- The pipeline's proof data on core c: the arrays are the entry contents; after the body at point t each input
    buffer holds its block and the output buffer holds out0_4 of the four blocks; the invariant is the one of a
    kernel that owns nothing of its own (the scoped rest and the generator register untouched); nothing is owed and
    every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents, read off the definition without unfolding V. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Before the body at any point, each input's current staging buffer holds that point's block. -/
theorem before0_0 (c : Dev nD) (t : Fin cfg0.N) (d) : (dat0 V c).before 0 t d = iblk0 V c 0 t :=
  in0_before_of V (dat0 V c) (A_eq0 V c 0) (after0_0 V c) t d
theorem before0_1 (c : Dev nD) (t : Fin cfg0.N) (d) : (dat0 V c).before 1 t d = iblk0 V c 1 t :=
  in1_before_of V (dat0 V c) (A_eq0 V c 1) (after0_1 V c) t d
theorem before0_2 (c : Dev nD) (t : Fin cfg0.N) (d) : (dat0 V c).before 2 t d = iblk0 V c 2 t :=
  in2_before_of V (dat0 V c) (A_eq0 V c 2) (after0_2 V c) t d
theorem before0_3 (c : Dev nD) (t : Fin cfg0.N) (d) : (dat0 V c).before 3 t d = iblk0 V c 3 t :=
  in3_before_of V (dat0 V c) (A_eq0 V c 3) (after0_3 V c) t d

/-! ## The body obligation -/

/-- What the loop hands the body at point t: the invariant, what is owed, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the loop expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what is owed do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_sum4 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.BprData.lean ====
/-
  The loss kernel's region, its data: the block of each operand window at a grid point, what the scratch accumulator holds
  after each point (zero plus the block sums so far: a recursion over the points), the region's invariant (before the first
  point nothing is known of the scratch; after a point it holds that accumulator value), and the pipeline's proof data —
  the operand buffers keep their blocks, the [1, 1] output buffer holds the accumulator times 2^-12 at the last point.
-/
import proofs.«160565_j73220602462343_1_alg».proof.Proof.Gen.Kernel.Launch
import proofs.«160565_j73220602462343_1_alg».proof.Proof.Gen.Kernel.Skeleton
import proofs.«160565_j73220602462343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«160565_j73220602462343_1_alg».proof.Proof.K.Core

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole [1, 1] buffer of the kernel's own. -/
abbrev scM1 : Memref sig .tc .vmem S1x1 .f32 := Memref.whole cc1_scratch0

/-- The accumulator after the body at point n: the first point leaves zero plus its block's sum, a later point adds its
    block's sum to what the point before left. -/
def accAt (c : Dev nD) : (n : ℕ) → n < cfg1.N → Vec F S1x1 .f32
  | 0, hn => k1_pay3 (iblk1 V c 0 ⟨0, hn⟩) (iblk1 V c 1 ⟨0, hn⟩) (iblk1 V c 2 ⟨0, hn⟩) k1_pay2
  | n + 1, hn => k1_pay3 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (h : t.val = 0) :
    accAt V c t.val t.isLt = k1_pay3 (iblk1 V c 0 t) (iblk1 V c 1 t) (iblk1 V c 2 t) k1_pay2 := by
  obtain ⟨n, hn⟩ := t
  cases n with
  | zero => rfl
  | succ n => exact absurd h (Nat.succ_ne_zero n)

theorem accAt_later (c : Dev nD) (t : Fin cfg1.N) (h : t.val ≠ 0) :
    accAt V c t.val t.isLt = k1_pay3 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd rfl h
  | succ n => rfl

/-- The scoped buffers this region does not stage — the other pallas_call's ten staging buffers, each whole at some
    contents — beside a statement S about the scratch accumulator. -/
def othersWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The invariant before position n: before the first point the class's (the scratch at anything); afterwards the scratch
    at what the point before left, and the generator register at some state. -/
def PhiS (c : Dev nD) : (n : ℕ) → n ≤ cfg1.N → sProp 𝕄
  | 0, _ => Pipeline.ΦA spec1 c
  | n + 1, hn => iprop(othersWith c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(othersWith c (owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(othersWith c (owns (c : Thread nD τ) scM1 fullShare (accAt V c (n - 1) (by omega))) ∗ (∃ r, prngReg c r)) := by
  cases n with
  | zero => exact absurd rfl hz
  | succ n => rfl

/-- The proof data of the loss kernel's pipeline on core c, at the region-entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accAt V c t.val t.isLt) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Region1

end Cert.Kernel.Hand

end
-- ==== Proof.K.MainRun.lean ====
/-
  The whole run of the program on a core: three stretches of host operations with the two kernel regions between them.

  The buffers' contents are followed from the launch through the five segments as a fold: W0 the launch memory, W1 after
  the first stretch (what the averaging region is entered from), W2 after that region (its arrays at what its pipeline
  leaves, every other buffer as entered), W3 after the second stretch (what the loss region is entered from), W4 after
  that region, W5 after the closing reshape. Each region is a segment over the thread state "every unscoped buffer at the
  boundary's contents, the generator register at some state, nothing owed"; each host stretch is a segment over the same
  state. The launch theorem then gives: every weakly fair execution terminates, and the final memory holds W5 at every
  unscoped buffer. No host operation and no region writes an argument, so W5 at an argument is the launch memory.

  What is asked of the loss region (its body obligation, and its invariant entered from and left at the invariant of a
  kernel that owns nothing) is taken as a hypothesis here.
-/
import proofs.«160565_j73220602462343_1_alg».proof.Proof.Gen.Kernel.Launch
import proofs.«160565_j73220602462343_1_alg».proof.Proof.Gen.Kernel.Skeleton
import proofs.«160565_j73220602462343_1_alg».proof.Proof.Gen.Kernel.Points
import proofs.«160565_j73220602462343_1_alg».proof.Proof.Gen.Kernel.Regions
import proofs.«160565_j73220602462343_1_alg».proof.Proof.K.Sum4
import proofs.«160565_j73220602462343_1_alg».proof.Proof.K.BprData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the run needs of the loss region, at any entry contents: the body obligation of its proof data, and that its
    invariant is entered from, and gives back, the invariant of a kernel that owns nothing. -/
structure LossRegionFacts : Prop where
  body : ∀ (V : (c : Dev nD) → (b : Ref sig .tc) → Buf (Elt F) ((c : Thread nD τ).loc b)) (c : Dev nD),
    BodyObligation (dat1 (F := F) V c) (defs₀ (F := F)) Variants.none () Set.univ
  enter : ∀ (V : (c : Dev nD) → (b : Ref sig .tc) → Buf (Elt F) ((c : Thread nD τ).loc b)) (c : Dev nD),
    (Pipeline.ΦA spec1 c : sProp 𝕄) ⊢ (dat1 V c).Φ 0
  leave : ∀ (V : (c : Dev nD) → (b : Ref sig .tc) → Buf (Elt F) ((c : Thread nD τ).loc b)) (c : Dev nD),
    (dat1 V c).Φ (Fin.last cfg1.N) ⊢ (Pipeline.ΦA spec1 c : sProp 𝕄)

variable (H1 : LossRegionFacts (F := F))
variable (m : (ℓ : Loc nD τ sig) → Buf (Elt F) ℓ) (ρ : Dev nD → PrngReg)

/-! ## The buffers' contents at the segment boundaries -/

/-- The core's buffers at launch. -/
abbrev W0 : Dev nD → Valuation τ sig (Elt F) := fun c b => (s₀ m ρ).mem ((c : Dev nD), b)
/-- After the first host stretch: what the averaging region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the averaging region: its five arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem arrays0_at_exit (c : Dev nD) (w : Fin cfg0.W) : (dat0 (V1 m ρ) c).arrAt w cfg0.N = V2 m ρ c (Pipeline.arrRef spec0 w) :=
  (W2_arr m ρ c w).symm
theorem others0_at_exit (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the loss region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the loss region: its four arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem arrays1_at_exit (c : Dev nD) (w : Fin cfg1.W) : (dat1 (V3 m ρ) c).arrAt w cfg1.N = V4 m ρ c (Pipeline.arrRef spec1 w) :=
  (W4_arr m ρ c w).symm
theorem others1_at_exit (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the closing host stretch: the contents the program returns with. -/
abbrev W5 : Dev nD → Valuation τ sig (Elt F) := fun c => StableHlo.after hostOps2 (W4 m ρ c)

/-! ## A buffer nothing writes is carried through the fold

    A host stretch changes only the references its operations write; a region changes only its windows' arrays. So a
    reference that is no host result and no window's array holds its launch contents at every boundary. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W1_keeps (c : Dev nD) (r : Ref sig .tc) (h0 : r ∉ hostOps0_W) :
    W1 m ρ c (Proc.devRef .tc r) = m ((c : Thread nD τ).loc r) :=
  (W1_of m ρ c r h0).trans rfl
theorem W2_keeps (c : Dev nD) (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_keeps m ρ c r h0)
theorem W3_keeps (c : Dev nD) (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (W3_of m ρ c r h1).trans (W2_keeps m ρ c r h0 a0)
theorem W4_keeps (c : Dev nD) (r : Ref sig .tc) (h0 : r ∉ hostOps0_W) (a0 : ∀ w, Pipeline.arrRef spec0 w ≠ r) (h1 : r ∉ hostOps1_W)
    (a1 : ∀ w, Pipeline.arrRef spec1 w ≠ r) : W4 m ρ c (Proc.devRef .tc r) = m ((c : Thread nD τ).loc r) :=
  (W4_of_ne m ρ c r a1).trans (W3_keeps m ρ c r h0 a0 h1)
theorem W5_keeps (c : Dev nD) (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) : W5 m ρ c (Proc.devRef .tc r) = m ((c : Thread nD τ).loc r) :=
  (W5_of m ρ c r h2).trans (W4_keeps m ρ c r h0 a0 h1 a1)

/-! The eight arguments are such references: each holds its launch contents at every boundary. -/

theorem W1_main_arg0 (c : Dev nD) : W1 m ρ c (Proc.devRef .tc main_arg0) = m ((c : Thread nD τ).loc main_arg0) :=
  W1_keeps m ρ c main_arg0 (by decide)
theorem W2_main_arg0 (c : Dev nD) : W2 m ρ c (Proc.devRef .tc main_arg0) = m ((c : Thread nD τ).loc main_arg0) :=
  W2_keeps m ρ c main_arg0 (by decide) (by decide)
theorem W3_main_arg0 (c : Dev nD) : W3 m ρ c (Proc.devRef .tc main_arg0) = m ((c : Thread nD τ).loc main_arg0) :=
  W3_keeps m ρ c main_arg0 (by decide) (by decide) (by decide)
theorem W4_main_arg0 (c : Dev nD) : W4 m ρ c (Proc.devRef .tc main_arg0) = m ((c : Thread nD τ).loc main_arg0) :=
  W4_keeps m ρ c main_arg0 (by decide) (by decide) (by decide) (by decide)
theorem W5_main_arg0 (c : Dev nD) : W5 m ρ c (Proc.devRef .tc main_arg0) = m ((c : Thread nD τ).loc main_arg0) :=
  W5_keeps m ρ c main_arg0 (by decide) (by decide) (by decide) (by decide) (by decide)
theorem W1_main_arg1 (c : Dev nD) : W1 m ρ c (Proc.devRef .tc main_arg1) = m ((c : Thread nD τ).loc main_arg1) :=
  W1_keeps m ρ c main_arg1 (by decide)
theorem W2_main_arg1 (c : Dev nD) : W2 m ρ c (Proc.devRef .tc main_arg1) = m ((c : Thread nD τ).loc main_arg1) :=
  W2_keeps m ρ c main_arg1 (by decide) (by decide)
theorem W3_main_arg1 (c : Dev nD) : W3 m ρ c (Proc.devRef .tc main_arg1) = m ((c : Thread nD τ).loc main_arg1) :=
  W3_keeps m ρ c main_arg1 (by decide) (by decide) (by decide)
theorem W4_main_arg1 (c : Dev nD) : W4 m ρ c (Proc.devRef .tc main_arg1) = m ((c : Thread nD τ).loc main_arg1) :=
  W4_keeps m ρ c main_arg1 (by decide) (by decide) (by decide) (by decide)
theorem W5_main_arg1 (c : Dev nD) : W5 m ρ c (Proc.devRef .tc main_arg1) = m ((c : Thread nD τ).loc main_arg1) :=
  W5_keeps m ρ c main_arg1 (by decide) (by decide) (by decide) (by decide) (by decide)
theorem W1_main_arg2 (c : Dev nD) : W1 m ρ c (Proc.devRef .tc main_arg2) = m ((c : Thread nD τ).loc main_arg2) :=
  W1_keeps m ρ c main_arg2 (by decide)
theorem W2_main_arg2 (c : Dev nD) : W2 m ρ c (Proc.devRef .tc main_arg2) = m ((c : Thread nD τ).loc main_arg2) :=
  W2_keeps m ρ c main_arg2 (by decide) (by decide)
theorem W3_main_arg2 (c : Dev nD) : W3 m ρ c (Proc.devRef .tc main_arg2) = m ((c : Thread nD τ).loc main_arg2) :=
  W3_keeps m ρ c main_arg2 (by decide) (by decide) (by decide)
theorem W4_main_arg2 (c : Dev nD) : W4 m ρ c (Proc.devRef .tc main_arg2) = m ((c : Thread nD τ).loc main_arg2) :=
  W4_keeps m ρ c main_arg2 (by decide) (by decide) (by decide) (by decide)
theorem W5_main_arg2 (c : Dev nD) : W5 m ρ c (Proc.devRef .tc main_arg2) = m ((c : Thread nD τ).loc main_arg2) :=
  W5_keeps m ρ c main_arg2 (by decide) (by decide) (by decide) (by decide) (by decide)
theorem W1_main_arg3 (c : Dev nD) : W1 m ρ c (Proc.devRef .tc main_arg3) = m ((c : Thread nD τ).loc main_arg3) :=
  W1_keeps m ρ c main_arg3 (by decide)
theorem W2_main_arg3 (c : Dev nD) : W2 m ρ c (Proc.devRef .tc main_arg3) = m ((c : Thread nD τ).loc main_arg3) :=
  W2_keeps m ρ c main_arg3 (by decide) (by decide)
theorem W3_main_arg3 (c : Dev nD) : W3 m ρ c (Proc.devRef .tc main_arg3) = m ((c : Thread nD τ).loc main_arg3) :=
  W3_keeps m ρ c main_arg3 (by decide) (by decide) (by decide)
theorem W4_main_arg3 (c : Dev nD) : W4 m ρ c (Proc.devRef .tc main_arg3) = m ((c : Thread nD τ).loc main_arg3) :=
  W4_keeps m ρ c main_arg3 (by decide) (by decide) (by decide) (by decide)
theorem W5_main_arg3 (c : Dev nD) : W5 m ρ c (Proc.devRef .tc main_arg3) = m ((c : Thread nD τ).loc main_arg3) :=
  W5_keeps m ρ c main_arg3 (by decide) (by decide) (by decide) (by decide) (by decide)
theorem W1_main_arg4 (c : Dev nD) : W1 m ρ c (Proc.devRef .tc main_arg4) = m ((c : Thread nD τ).loc main_arg4) :=
  W1_keeps m ρ c main_arg4 (by decide)
theorem W2_main_arg4 (c : Dev nD) : W2 m ρ c (Proc.devRef .tc main_arg4) = m ((c : Thread nD τ).loc main_arg4) :=
  W2_keeps m ρ c main_arg4 (by decide) (by decide)
theorem W3_main_arg4 (c : Dev nD) : W3 m ρ c (Proc.devRef .tc main_arg4) = m ((c : Thread nD τ).loc main_arg4) :=
  W3_keeps m ρ c main_arg4 (by decide) (by decide) (by decide)
theorem W4_main_arg4 (c : Dev nD) : W4 m ρ c (Proc.devRef .tc main_arg4) = m ((c : Thread nD τ).loc main_arg4) :=
  W4_keeps m ρ c main_arg4 (by decide) (by decide) (by decide) (by decide)
theorem W5_main_arg4 (c : Dev nD) : W5 m ρ c (Proc.devRef .tc main_arg4) = m ((c : Thread nD τ).loc main_arg4) :=
  W5_keeps m ρ c main_arg4 (by decide) (by decide) (by decide) (by decide) (by decide)
theorem W1_main_arg5 (c : Dev nD) : W1 m ρ c (Proc.devRef .tc main_arg5) = m ((c : Thread nD τ).loc main_arg5) :=
  W1_keeps m ρ c main_arg5 (by decide)
theorem W2_main_arg5 (c : Dev nD) : W2 m ρ c (Proc.devRef .tc main_arg5) = m ((c : Thread nD τ).loc main_arg5) :=
  W2_keeps m ρ c main_arg5 (by decide) (by decide)
theorem W3_main_arg5 (c : Dev nD) : W3 m ρ c (Proc.devRef .tc main_arg5) = m ((c : Thread nD τ).loc main_arg5) :=
  W3_keeps m ρ c main_arg5 (by decide) (by decide) (by decide)
theorem W4_main_arg5 (c : Dev nD) : W4 m ρ c (Proc.devRef .tc main_arg5) = m ((c : Thread nD τ).loc main_arg5) :=
  W4_keeps m ρ c main_arg5 (by decide) (by decide) (by decide) (by decide)
theorem W5_main_arg5 (c : Dev nD) : W5 m ρ c (Proc.devRef .tc main_arg5) = m ((c : Thread nD τ).loc main_arg5) :=
  W5_keeps m ρ c main_arg5 (by decide) (by decide) (by decide) (by decide) (by decide)
theorem W1_main_arg6 (c : Dev nD) : W1 m ρ c (Proc.devRef .tc main_arg6) = m ((c : Thread nD τ).loc main_arg6) :=
  W1_keeps m ρ c main_arg6 (by decide)
theorem W2_main_arg6 (c : Dev nD) : W2 m ρ c (Proc.devRef .tc main_arg6) = m ((c : Thread nD τ).loc main_arg6) :=
  W2_keeps m ρ c main_arg6 (by decide) (by decide)
theorem W3_main_arg6 (c : Dev nD) : W3 m ρ c (Proc.devRef .tc main_arg6) = m ((c : Thread nD τ).loc main_arg6) :=
  W3_keeps m ρ c main_arg6 (by decide) (by decide) (by decide)
theorem W4_main_arg6 (c : Dev nD) : W4 m ρ c (Proc.devRef .tc main_arg6) = m ((c : Thread nD τ).loc main_arg6) :=
  W4_keeps m ρ c main_arg6 (by decide) (by decide) (by decide) (by decide)
theorem W5_main_arg6 (c : Dev nD) : W5 m ρ c (Proc.devRef .tc main_arg6) = m ((c : Thread nD τ).loc main_arg6) :=
  W5_keeps m ρ c main_arg6 (by decide) (by decide) (by decide) (by decide) (by decide)
theorem W1_main_arg7 (c : Dev nD) : W1 m ρ c (Proc.devRef .tc main_arg7) = m ((c : Thread nD τ).loc main_arg7) :=
  W1_keeps m ρ c main_arg7 (by decide)
theorem W2_main_arg7 (c : Dev nD) : W2 m ρ c (Proc.devRef .tc main_arg7) = m ((c : Thread nD τ).loc main_arg7) :=
  W2_keeps m ρ c main_arg7 (by decide) (by decide)
theorem W3_main_arg7 (c : Dev nD) : W3 m ρ c (Proc.devRef .tc main_arg7) = m ((c : Thread nD τ).loc main_arg7) :=
  W3_keeps m ρ c main_arg7 (by decide) (by decide) (by decide)
theorem W4_main_arg7 (c : Dev nD) : W4 m ρ c (Proc.devRef .tc main_arg7) = m ((c : Thread nD τ).loc main_arg7) :=
  W4_keeps m ρ c main_arg7 (by decide) (by decide) (by decide) (by decide)
theorem W5_main_arg7 (c : Dev nD) : W5 m ρ c (Proc.devRef .tc main_arg7) = m ((c : Thread nD τ).loc main_arg7) :=
  W5_keeps m ρ c main_arg7 (by decide) (by decide) (by decide) (by decide) (by decide)

/-! The two results the regions write: the averaging region's result array and the loss region's [1, 1] output, each
    at what its pipeline leaves. -/

theorem W2_main_v40 (c : Dev nD) : W2 m ρ c (Proc.devRef .tc main_v40) = (dat0 (V1 m ρ) c).arrAt 4 cfg0.N :=
  W2_arr m ρ c 4
theorem W4_main_v64 (c : Dev nD) : W4 m ρ c (Proc.devRef .tc main_v64) = (dat1 (V3 m ρ) c).arrAt 3 cfg1.N :=
  W4_arr m ρ c 3

/-! The boundaries after the host stretches, spelt out. -/

theorem W1_eq (c : Dev nD) : W1 m ρ c = StableHlo.after hostOps0 (W0 m ρ c) := rfl
theorem W3_eq (c : Dev nD) : W3 m ρ c = StableHlo.after hostOps1 (W2 m ρ c) := rfl
theorem W5_eq (c : Dev nD) : W5 m ρ c = StableHlo.after hostOps2 (W4 m ρ c) := rfl
theorem V1_eq (c : Dev nD) (b : Ref sig .tc) : V1 m ρ c b = StableHlo.after hostOps0 (W0 m ρ c) (Proc.devRef .tc b) := rfl
theorem V3_eq (c : Dev nD) (b : Ref sig .tc) : V3 m ρ c b = StableHlo.after hostOps1 (W2 m ρ c) (Proc.devRef .tc b) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev noPairs : GSem nD τ sig → Finset Unit := fun _ => ∅
abbrev noLevel : GSem nD τ sig → Unit → ℕ := fun _ _ => 0
/-- What rides beside the buffers through every segment: the generator register at some state, and nothing owed. -/
abbrev beside (c : Dev nD) : sProp 𝕄 := iprop((∃ r, prngReg c r) ∗ ∃ W, owes (c : Thread nD τ) (0 : CellTallies nD τ sig Unit) W)
/-- A host stretch as a segment over the unscoped references from the contents W, beside riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at W5, the generator register at some state. -/
abbrev lastState (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The averaging region over the thread state: entered from every unscoped buffer at W1, left at W2. Its arrays are
    split out of the unscoped buffers and put back at the exit contents; the generator register goes into the invariant and
    comes out; nothing is owed; the kernel has no semaphore of its own. -/
def reg0 : Pipeline.RegionSeg (pcfgs (F := F)) adm (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays0_at_exit m ρ c) (others0_at_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region over the thread state: entered from every unscoped buffer at W3, left at W4. As the averaging
    region, except that its invariant is its own: it is entered from, and gives back, the invariant of a kernel that
    owns nothing (the hypothesis), which is what the thread state holds. -/
def reg1 : Pipeline.RegionSeg (pcfgs (F := F)) adm (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (H1.body (V3 m ρ) c).loose
  hwaits := Pipeline.hwaits_of_owed_zero _ _ _ _ noPairs noLevel 1 fun _ _ => rfl
  pre c := iprop(StableHlo.held (c : Thread nD τ) (Pipeline.ucRefs τ sig) (W3 m ρ c) ∗ beside c)
  post c := iprop(StableHlo.held (c : Thread nD τ) (Pipeline.ucRefs τ sig) (W4 m ρ c) ∗ beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have enter := H1.enter (V3 m ρ) c
    unfold Pipeline.ΦA at enter
    iintro ⟨Hp, -, Hr⟩
    iapply enter
    isplitl [Hr]; · iexact Hr
    iexact Hp
  hout c := by
    rw [Pipeline.ownSems0_none, show (pdats m ρ 1 c).Φ (Fin.last _) = (dat1 (V3 m ρ) c).Φ (Fin.last cfg1.N) from rfl]
    have leave := H1.leave (V3 m ρ) c
    unfold Pipeline.ΦA at leave
    refine leave.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays1_at_exit m ρ c) (others1_at_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ noPairs noLevel) :=
  [ .host (hostSeg hostOps0 hostOps0_sub hostOps0_fresh (W0 m ρ)),
    .region (reg0 m ρ),
    .host (hostSeg hostOps1 hostOps1_sub hostOps1_fresh (W2 m ρ)),
    .region (reg1 H1 m ρ),
    .host (hostSeg hostOps2 hostOps2_sub hostOps2_fresh (W4 m ρ)) ]

/-- The program is the run of its segments. -/
theorem main_run (c : Dev nD) : main (F := F) c = Pipeline.Seg.run (segs H1 m ρ) := (main_chain c).trans (by chain_rfl)

include H1 in
set_option backward.isDefEq.respectTransparency.types false in
/-- From any memory with zero counters, every weakly fair execution of the program on the TensorCores terminates, nothing
    faulting, and every final memory holds, at every unscoped buffer, the contents the fold ends with. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ noPairs noLevel m ρ main (segs H1 m ρ)
    (fun c Q => by rw [main_run H1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := lastState m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ beside c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

include H1 in
/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r (h : ∀ c : Dev nD, ∀ b ∈ Pipeline.ucRefs τ sig, r.2.mem ((c : Thread nD τ).1, b) = W5 m ρ c b) c =>
    ⟨(h c _ (mem_unscoped main_arg0 (by decide))).trans (W5_main_arg0 m ρ c),
     (h c _ (mem_unscoped main_arg1 (by decide))).trans (W5_main_arg1 m ρ c),
     (h c _ (mem_unscoped main_arg2 (by decide))).trans (W5_main_arg2 m ρ c),
     (h c _ (mem_unscoped main_arg3 (by decide))).trans (W5_main_arg3 m ρ c),
     (h c _ (mem_unscoped main_arg4 (by decide))).trans (W5_main_arg4 m ρ c),
     (h c _ (mem_unscoped main_arg5 (by decide))).trans (W5_main_arg5 m ρ c),
     (h c _ (mem_unscoped main_arg6 (by decide))).trans (W5_main_arg6 m ρ c),
     (h c _ (mem_unscoped main_arg7 (by decide))).trans (W5_main_arg7 m ρ c)⟩)
    (run_all H1 m ρ)

end Cert.Kernel.Hand

end
-- ==== Proof.K.BprCases.lean ====
/-
  The loss kernel (the second pallas_call): eight grid points over blocks of 512 rows of three [4096, 64] operands, a [1, 1]
  scratch accumulator carried from point to point, a [1, 1] output written at the last point only.
  This module: the kernel body's three control cases as triples — the first point (the accumulator is zeroed, then the
  block's sum added), a middle point (the block's sum added to what the point before left), the last point (the same, then
  the accumulator times 2^-12 stored to the output) — over the payload functions of the printed body.
-/
import proofs.«160565_j73220602462343_1_alg».proof.Proof.Gen.Kernel.Launch
import proofs.«160565_j73220602462343_1_alg».proof.Proof.Gen.Kernel.Skeleton
import proofs.«160565_j73220602462343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- "This is the first point": the body's first branch (it zeroes the accumulator). -/
abbrev condFirst (i : grid1.Coords) : Prop :=
  (Scalar.cmpi .ne (Scalar.extui (Scalar.cmpi .eq (BitVec.ofNat 32 (i 0).val) 0#32)) 0#32) = 1#1
/-- "This is the last point": the body's second branch (it writes the output). -/
abbrev condLast (i : grid1.Coords) : Prop := k1_cond2 i = 1#1

theorem hFirst : ∀ t : Fin cfg1.N, condFirst (grid1.coords t) ↔ t.val % 8 = 0 :=
  (by decide +kernel : ∀ t : Fin grid1.N, condFirst (grid1.coords t) ↔ t.val % 8 = 0)
theorem hLast : ∀ t : Fin cfg1.N, condLast (grid1.coords t) ↔ t.val % 8 = 7 :=
  (by decide +kernel : ∀ t : Fin grid1.N, condLast (grid1.coords t) ↔ t.val % 8 = 7)

/-- The three operand windows are live at every point; the output window is idle (and not written back) except at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-! ## The body, case by case, on whole memrefs -/

theorem hz2 : (![0, 0] : Fin 2 → Nat) = fun _ => 0 := funext fun a => by fin_cases a <;> rfl

/-- A whole-shape rectangle at offset zero holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A buffer read after a list of stores whose LAST one covers it whole holds that store's payload. -/
theorem read_writes_whole {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (P : S.Idx → Elt F e)
    (L : List (View.Piece (Elt F) S e)) :
    View.read (Elt F) v (v.writes (Elt F) f (⟨Rect.unit off S.size inb, P⟩ :: L)) = P := by
  rw [View.read_writes_eq_canon _ _ _ (fun y => ⟨_, List.mem_cons_self, mem_unit_zero h inb y⟩), View.canon_cons_unit_zero h]

set_option maxHeartbeats 4000000 in
/-- First point: the accumulator, whatever it held, ends at the block's sum added to zero; the output buffer is not touched. -/
theorem run_first (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : condFirst i) (hc1 : ¬condLast i)
    (x0 x1 x2 : Vec F S512x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k1_pay3 x0 x1 x2 k1_pay2)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  refine (read_writes_whole _ _ hz2 _ _ _).trans ?_
  simp only [View.readAt_eq_ld, hf1, hf2, hf3, View.ld_unit_zero (S := S512x64) hz2]
  exact congrArg (k1_pay3 x0 x1 x2) (View.readCov_unit_zero (S := S1x1) _ hz2 _ _)

set_option maxHeartbeats 4000000 in
/-- A middle point: the accumulator goes from what it held to that plus the block's sum; the output buffer is not touched. -/
theorem run_mid (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : ¬condFirst i) (hc1 : ¬condLast i)
    (x0 x1 x2 : Vec F S512x64 .f32) (xo xs : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k1_pay3 x0 x1 x2 xs)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  refine (read_writes_whole _ _ hz2 _ _ _).trans ?_
  simp only [View.readAt_eq_ld, hf1, hf2, hf3, View.ld_unit_zero (S := S512x64) hz2, hf5, View.ld_unit_zero (S := S1x1) hz2]

set_option maxHeartbeats 4000000 in
/-- The last point: the accumulator goes from what it held to that plus the block's sum, and the output buffer, whatever it held, ends at the new accumulator times 2^-12. -/
theorem run_last (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : ¬condFirst i) (hc1 : condLast i)
    (x0 x1 x2 : Vec F S512x64 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 (k1_pay3 x0 x1 x2 xs)) ∗ owns (c : Thread nD τ) arg5 fullShare (k1_pay3 x0 x1 x2 xs)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    refine (read_writes_whole _ _ hz2 _ _ _).trans ?_
    simp only [View.readAt_eq_ld, hf1, hf2, hf3, View.ld_unit_zero (S := S512x64) hz2, hf5, View.ld_unit_zero (S := S1x1) hz2]
    exact congrArg k1_pay1 (View.readCov_unit_zero (S := S1x1) _ hz2 _ _)
  iexists _; isplitr
  swap; · iexact H5
  ipureintro
  sl_unfold_run_names
  refine (read_writes_whole _ _ hz2 _ _ _).trans ?_
  simp only [View.readAt_eq_ld, hf1, hf2, hf3, View.ld_unit_zero (S := S512x64) hz2, hf5, View.ld_unit_zero (S := S1x1) hz2]

end Cert.Kernel.Hand

end
-- ==== Proof.K.Bpr.lean ====
/-
  The loss kernel's region, its body obligation: at every grid point the kernel body, run from the region's invariant and
  the windows' current buffers, returns the invariant at the next point and the buffers as the proof data says. The point's
  control case is decided from its number (the first point, a middle point, the last point) and that case's triple applies;
  the scratch accumulator is handed to the body at what the point before left and taken back at this point's value. Also:
  the invariant before the first point is the class's, and after the last point it gives the class's invariant back.
-/
import proofs.«160565_j73220602462343_1_alg».proof.Proof.K.BprData
import proofs.«160565_j73220602462343_1_alg».proof.Proof.K.BprCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Each operand window's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The class's invariant with the scratch as a memref owned at some contents. -/
theorem PhiA1_eq (c : Dev nD) :
    (Pipeline.ΦA spec1 c : sProp 𝕄)
      = iprop(othersWith c iprop(∃ d, owns (c : Thread nD τ) scM1 fullShare d) ∗ (∃ r, prngReg c r)) := by
  unfold Pipeline.ΦA othersWith; rw [scopedRest1_eq]; simp only [scM1, owns_whole]; try rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have hz : t.val = 0 := by omega
    have hl : ¬ t.val % 8 = 7 := by omega
    rw [Dat.leavesExact_idle (dat1 V c) 3 t (idleAt1_3 t (fun h => hl ((hLast t).mp h))) (noFlush1_3 t (fun h => hl ((hLast t).mp h)))]
    rw [accAt_first V c t hz]
    rw [PhiS_castSucc V c t, PhiS_zero V c _ _ hz, PhiA1_eq]
    unfold othersWith
    iintro ⟨⟨⟨R0, R1, R2, R3, R4, R5, R6, R7, R8, R9, HS⟩, Hg⟩, Ho, ⟨%d0, H0⟩, ⟨%d1, H1⟩, ⟨%d2, H2⟩, ⟨%d3, H3⟩⟩
    iapply (run_first c Set.univ (grid1.coords t) _ _ _ _ _ _ _ _ _ _ ((hFirst t).mpr h0) (fun h => hl ((hLast t).mp h)) (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [R0 R1 R2 R3 R4 R5 R6 R7 R8 R9 HS Hg]
    · isplitl [R0 R1 R2 R3 R4 R5 R6 R7 R8 R9 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact HS
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat1 V c).leavesExact 3 t = owns (c : Thread nD τ) (st1_3 t) fullShare ((dat1 V c).after 3 t) from by
        unfold Dat.leavesExact; rw [liveAt1_3 t ((hLast t).mpr h1)], after1_3]
      rw [accAt_later V c t hz]
      rw [PhiS_castSucc V c t, PhiS_pos V c _ _ hz]
      unfold othersWith
      iintro ⟨⟨⟨R0, R1, R2, R3, R4, R5, R6, R7, R8, R9, HS⟩, Hg⟩, Ho, ⟨%d0, H0⟩, ⟨%d1, H1⟩, ⟨%d2, H2⟩, ⟨%d3, H3⟩⟩
      iapply (run_last c Set.univ (grid1.coords t) _ _ _ _ _ _ _ _ _ _ (fun h => h0 ((hFirst t).mp h)) ((hLast t).mpr h1) (iblk1 V c 0 t) (iblk1 V c 1 t) (iblk1 V c 2 t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R0 R1 R2 R3 R4 R5 R6 R7 R8 R9 HS Hg]
      · isplitl [R0 R1 R2 R3 R4 R5 R6 R7 R8 R9 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hLast t).mp h))) (noFlush1_3 t (fun h => h1 ((hLast t).mp h)))]
      rw [accAt_later V c t hz]
      rw [PhiS_castSucc V c t, PhiS_pos V c _ _ hz]
      unfold othersWith
      iintro ⟨⟨⟨R0, R1, R2, R3, R4, R5, R6, R7, R8, R9, HS⟩, Hg⟩, Ho, ⟨%d0, H0⟩, ⟨%d1, H1⟩, ⟨%d2, H2⟩, ⟨%d3, H3⟩⟩
      iapply (run_mid c Set.univ (grid1.coords t) _ _ _ _ _ _ _ _ _ _ (fun h => h0 ((hFirst t).mp h)) (fun h => h1 ((hLast t).mp h)) (iblk1 V c 0 t) (iblk1 V c 1 t) (iblk1 V c 2 t) ((dat1 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R0 R1 R2 R3 R4 R5 R6 R7 R8 R9 HS Hg]
      · isplitl [R0 R1 R2 R3 R4 R5 R6 R7 R8 R9 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the scratch holds is forgotten. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold othersWith
  iintro ⟨⟨R0, R1, R2, R3, R4, R5, R6, R7, R8, R9, HS⟩, Hg⟩
  isplitl [R0 R1 R2 R3 R4 R5 R6 R7 R8 R9 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS
  iexact Hg

end Region1

end Cert.Kernel.Hand

end
-- ==== Proof.KI.Core.lean ====
/-
  The loss kernel's arithmetic, stated once over whole [4096, 64] operands: the block of rows a grid point sees, the
  running accumulator after each point (the zero the first point stores, then one block sum added per point), and the
  final scaling. These are the functions both the frame proof (what the scratch holds after each point) and the value
  proof (what the result equals) are written over.
-/
import proofs.«160565_j73220602462343_1_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- The averaging kernel over whole [150000, 64] arrays: ((x0 + x1) + x2 + x3) · 0.25, entry by entry. -/
def light4 (x0 x1 x2 x3 : Vec F S150000x64 .f32) : Vec F S150000x64 .f32 :=
  mulf (addf (addf (addf (x0 : FVec F S150000x64 .f32) x1) x2) x3) (broadcast S150000x64 (Scalar.ofBits .f32 0x3E800000#32 : F .f32))

/-- Rows 512·t … 512·t + 511 of a [4096, 64] array: the block grid point t is handed. -/
def rowsBlock (x : Vec F S4096x64 .f32) (t : ℕ) (ht : t < 8) : Vec F S512x64 .f32 :=
  fun y => x (ix2 (⟨512 * t + (y 0).val, by have := idx2_lt0 y; omega⟩ : Fin 4096) (⟨(y 1).val, idx2_lt1 y⟩ : Fin 64))

/-- The accumulator after the first k grid points: zero, then per point the block's sum of softplus(neg − pos) added. -/
def accUpTo (u p n : Vec F S4096x64 .f32) : (k : ℕ) → k ≤ 8 → Vec F S1x1 .f32
  | 0, _ => k1_pay2
  | k + 1, h => k1_pay3 (rowsBlock u k (by omega)) (rowsBlock p k (by omega)) (rowsBlock n k (by omega)) (accUpTo u p n k (by omega))

/-- What the last point writes to the [1, 1] output: the accumulator after all eight points times 2^-12. -/
def lossBlock (u p n : Vec F S4096x64 .f32) : Vec F S1x1 .f32 := k1_pay1 (accUpTo u p n 8 le_rfl)

end Cert.KernelIdeal.Hand

end
-- ==== Proof.KI.Sum4.lean ====
/-
  Region 0 of the program: the averaging kernel, run by the pipeline over a grid of 30 points. Each point sees rows
  5000·t … 5000·t + 4999 of four [150000, 64] arrays and writes the same rows of the result. Everything here is stated
  at a parameter V, the contents of the core's buffers when the region is entered.

  The kernel's body reads its four input blocks whole, reads the output block once (the value is not used), and
  stores ((x0 + x1) + x2 + x3) · 0.25 over the whole output block. So after the body the four input buffers are as
  they were, and the output buffer holds the single stored piece. The proof data records exactly this, and the body
  obligation is the body's triple put in the shape the pipeline's loop asks for.
-/
import proofs.«160565_j73220602462343_1_alg».proof.Proof.Gen.KernelIdeal.Launch
import proofs.«160565_j73220602462343_1_alg».proof.Proof.Gen.KernelIdeal.Skeleton
import proofs.«160565_j73220602462343_1_alg».proof.Proof.Gen.KernelIdeal.Points
import proofs.«160565_j73220602462343_1_alg».proof.Proof.KI.Core
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the points see -/

/-- The block of window w at point t: the rows of w's array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each of the four inputs is fetched at every point and never written by the body, so whatever proof data has the
    entry contents as its arrays and leaves an input's block in place has, before the body at every point, that input's
    current staging buffer at the point's block. One statement per input window. -/

theorem in0_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem in1_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem in2_before_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem in3_before_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body does to a block -/

/-- The one rectangle the body touches: the whole [5000, 64] block, from the origin. -/
abbrev wholeBlk : Rect S5000x64 := Rect.unit (s := S5000x64) ![0, 0] S5000x64.size inb_S5000x64_S5000x64_0_0

/-- The output buffer after the body, from the four input blocks: one piece, the whole block, holding the average
    of the four blocks as the body computes it from what it loaded. -/
def out0_4 (x0 x1 x2 x3 : Vec F S5000x64 .f32) : Vec F S5000x64 .f32 :=
  View.canon [⟨wholeBlk, k0_pay1 (View.ld x0 wholeBlk) (View.ld x1 wholeBlk) (View.ld x2 wholeBlk) (View.ld x3 wholeBlk)⟩]

/-- The single stored piece covers every index of the block: its extent is the block's. -/
theorem out_covered (p : Vec F S5000x64 .f32) (y : S5000x64.Idx) :
    ∃ pc ∈ ([⟨wholeBlk, p⟩] : List (View.Piece (Elt F) S5000x64 .f32)), y ∈ pc.1.set :=
  View.cover_of_tiled [⟨wholeBlk, p⟩] S5000x64.size (by rfl) y

set_option maxHeartbeats 1000000 in
/-- The body's triple on whole staging memrefs: with the four inputs at x0 … x3 and the output at anything, the body
    runs, faults nowhere, and hands its continuation the inputs unchanged and the output at out0_4 x0 x1 x2 x3. The
    body's load of the output buffer is allowed because the buffer is owned, at whatever it holds. -/
theorem sound_sum4 (c : Dev nD) (E : Set ℕ) (i : grid0.Coords)
    (a0 : Memref sig .tc .vmem S5000x64 .f32) (ha0 : a0.IsWhole) (a1 : Memref sig .tc .vmem S5000x64 .f32) (ha1 : a1.IsWhole)
    (a2 : Memref sig .tc .vmem S5000x64 .f32) (ha2 : a2.IsWhole) (a3 : Memref sig .tc .vmem S5000x64 .f32) (ha3 : a3.IsWhole)
    (o : Memref sig .tc .vmem S5000x64 .f32) (ho : o.IsWhole)
    (x0 x1 x2 x3 : Vec F S5000x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) o fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) o fullShare (out0_4 x0 x1 x2 x3)) -∗ K ⟨⟩))
      ⊢ wp frame (wpE (defs₀ (F := F)) Variants.none c none) E (cc0__sum4_kernel i a0 ha0 a1 ha1 a2 ha2 a3 ha3 o ho) K := by
  simp only [cc0__sum4_kernel_eq_skeleton]; unfold cc0__sum4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (out_covered _)

/-! ## The proof data of the region -/

/-- The pipeline's proof data on core c: the arrays are the entry contents; after the body at point t each input
    buffer holds its block and the output buffer holds out0_4 of the four blocks; the invariant is the one of a
    kernel that owns nothing of its own (the scoped rest and the generator register untouched); nothing is owed and
    every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents, read off the definition without unfolding V. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Before the body at any point, each input's current staging buffer holds that point's block. -/
theorem before0_0 (c : Dev nD) (t : Fin cfg0.N) (d) : (dat0 V c).before 0 t d = iblk0 V c 0 t :=
  in0_before_of V (dat0 V c) (A_eq0 V c 0) (after0_0 V c) t d
theorem before0_1 (c : Dev nD) (t : Fin cfg0.N) (d) : (dat0 V c).before 1 t d = iblk0 V c 1 t :=
  in1_before_of V (dat0 V c) (A_eq0 V c 1) (after0_1 V c) t d
theorem before0_2 (c : Dev nD) (t : Fin cfg0.N) (d) : (dat0 V c).before 2 t d = iblk0 V c 2 t :=
  in2_before_of V (dat0 V c) (A_eq0 V c 2) (after0_2 V c) t d
theorem before0_3 (c : Dev nD) (t : Fin cfg0.N) (d) : (dat0 V c).before 3 t d = iblk0 V c 3 t :=
  in3_before_of V (dat0 V c) (A_eq0 V c 3) (after0_3 V c) t d

/-! ## The body obligation -/

/-- What the loop hands the body at point t: the invariant, what is owed, and the five current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the loop expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    what is owed do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_sum4 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.BprData.lean ====
/-
  The loss kernel's region, its data: the block of each operand window at a grid point, what the scratch accumulator holds
  after each point (zero plus the block sums so far: a recursion over the points), the region's invariant (before the first
  point nothing is known of the scratch; after a point it holds that accumulator value), and the pipeline's proof data —
  the operand buffers keep their blocks, the [1, 1] output buffer holds the accumulator times 2^-12 at the last point.
-/
import proofs.«160565_j73220602462343_1_alg».proof.Proof.Gen.KernelIdeal.Launch
import proofs.«160565_j73220602462343_1_alg».proof.Proof.Gen.KernelIdeal.Skeleton
import proofs.«160565_j73220602462343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«160565_j73220602462343_1_alg».proof.Proof.KI.Core

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, a whole [1, 1] buffer of the kernel's own. -/
abbrev scM1 : Memref sig .tc .vmem S1x1 .f32 := Memref.whole cc1_scratch0

/-- The accumulator after the body at point n: the first point leaves zero plus its block's sum, a later point adds its
    block's sum to what the point before left. -/
def accAt (c : Dev nD) : (n : ℕ) → n < cfg1.N → Vec F S1x1 .f32
  | 0, hn => k1_pay3 (iblk1 V c 0 ⟨0, hn⟩) (iblk1 V c 1 ⟨0, hn⟩) (iblk1 V c 2 ⟨0, hn⟩) k1_pay2
  | n + 1, hn => k1_pay3 (iblk1 V c 0 ⟨n + 1, hn⟩) (iblk1 V c 1 ⟨n + 1, hn⟩) (iblk1 V c 2 ⟨n + 1, hn⟩) (accAt c n (Nat.lt_of_succ_lt hn))

theorem accAt_first (c : Dev nD) (t : Fin cfg1.N) (h : t.val = 0) :
    accAt V c t.val t.isLt = k1_pay3 (iblk1 V c 0 t) (iblk1 V c 1 t) (iblk1 V c 2 t) k1_pay2 := by
  obtain ⟨n, hn⟩ := t
  cases n with
  | zero => rfl
  | succ n => exact absurd h (Nat.succ_ne_zero n)

theorem accAt_later (c : Dev nD) (t : Fin cfg1.N) (h : t.val ≠ 0) :
    accAt V c t.val t.isLt = k1_pay3 (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd rfl h
  | succ n => rfl

/-- The scoped buffers this region does not stage — the other pallas_call's ten staging buffers, each whole at some
    contents — beside a statement S about the scratch accumulator. -/
def othersWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The invariant before position n: before the first point the class's (the scratch at anything); afterwards the scratch
    at what the point before left, and the generator register at some state. -/
def PhiS (c : Dev nD) : (n : ℕ) → n ≤ cfg1.N → sProp 𝕄
  | 0, _ => Pipeline.ΦA spec1 c
  | n + 1, hn => iprop(othersWith c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(othersWith c (owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(othersWith c (owns (c : Thread nD τ) scM1 fullShare (accAt V c (n - 1) (by omega))) ∗ (∃ r, prngReg c r)) := by
  cases n with
  | zero => exact absurd rfl hz
  | succ n => rfl

/-- The proof data of the loss kernel's pipeline on core c, at the region-entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (accAt V c t.val t.isLt) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Region1

end Cert.KernelIdeal.Hand

end
-- ==== Proof.KI.MainRun.lean ====
/-
  The whole run of the program on a core: three stretches of host operations with the two kernel regions between them.

  The buffers' contents are followed from the launch through the five segments as a fold: W0 the launch memory, W1 after
  the first stretch (what the averaging region is entered from), W2 after that region (its arrays at what its pipeline
  leaves, every other buffer as entered), W3 after the second stretch (what the loss region is entered from), W4 after
  that region, W5 after the closing reshape. Each region is a segment over the thread state "every unscoped buffer at the
  boundary's contents, the generator register at some state, nothing owed"; each host stretch is a segment over the same
  state. The launch theorem then gives: every weakly fair execution terminates, and the final memory holds W5 at every
  unscoped buffer. No host operation and no region writes an argument, so W5 at an argument is the launch memory.

  What is asked of the loss region (its body obligation, and its invariant entered from and left at the invariant of a
  kernel that owns nothing) is taken as a hypothesis here.
-/
import proofs.«160565_j73220602462343_1_alg».proof.Proof.Gen.KernelIdeal.Launch
import proofs.«160565_j73220602462343_1_alg».proof.Proof.Gen.KernelIdeal.Skeleton
import proofs.«160565_j73220602462343_1_alg».proof.Proof.Gen.KernelIdeal.Points
import proofs.«160565_j73220602462343_1_alg».proof.Proof.Gen.KernelIdeal.Regions
import proofs.«160565_j73220602462343_1_alg».proof.Proof.KI.Sum4
import proofs.«160565_j73220602462343_1_alg».proof.Proof.KI.BprData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the run needs of the loss region, at any entry contents: the body obligation of its proof data, and that its
    invariant is entered from, and gives back, the invariant of a kernel that owns nothing. -/
structure LossRegionFacts : Prop where
  body : ∀ (V : (c : Dev nD) → (b : Ref sig .tc) → Buf (Elt F) ((c : Thread nD τ).loc b)) (c : Dev nD),
    BodyObligation (dat1 (F := F) V c) (defs₀ (F := F)) Variants.none () Set.univ
  enter : ∀ (V : (c : Dev nD) → (b : Ref sig .tc) → Buf (Elt F) ((c : Thread nD τ).loc b)) (c : Dev nD),
    (Pipeline.ΦA spec1 c : sProp 𝕄) ⊢ (dat1 V c).Φ 0
  leave : ∀ (V : (c : Dev nD) → (b : Ref sig .tc) → Buf (Elt F) ((c : Thread nD τ).loc b)) (c : Dev nD),
    (dat1 V c).Φ (Fin.last cfg1.N) ⊢ (Pipeline.ΦA spec1 c : sProp 𝕄)

variable (H1 : LossRegionFacts (F := F))
variable (m : (ℓ : Loc nD τ sig) → Buf (Elt F) ℓ) (ρ : Dev nD → PrngReg)

/-! ## The buffers' contents at the segment boundaries -/

/-- The core's buffers at launch. -/
abbrev W0 : Dev nD → Valuation τ sig (Elt F) := fun c b => (s₀ m ρ).mem ((c : Dev nD), b)
/-- After the first host stretch: what the averaging region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the averaging region: its five arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem arrays0_at_exit (c : Dev nD) (w : Fin cfg0.W) : (dat0 (V1 m ρ) c).arrAt w cfg0.N = V2 m ρ c (Pipeline.arrRef spec0 w) :=
  (W2_arr m ρ c w).symm
theorem others0_at_exit (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the loss region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the loss region: its four arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem arrays1_at_exit (c : Dev nD) (w : Fin cfg1.W) : (dat1 (V3 m ρ) c).arrAt w cfg1.N = V4 m ρ c (Pipeline.arrRef spec1 w) :=
  (W4_arr m ρ c w).symm
theorem others1_at_exit (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the closing host stretch: the contents the program returns with. -/
abbrev W5 : Dev nD → Valuation τ sig (Elt F) := fun c => StableHlo.after hostOps2 (W4 m ρ c)

/-! ## A buffer nothing writes is carried through the fold

    A host stretch changes only the references its operations write; a region changes only its windows' arrays. So a
    reference that is no host result and no window's array holds its launch contents at every boundary. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W1_keeps (c : Dev nD) (r : Ref sig .tc) (h0 : r ∉ hostOps0_W) :
    W1 m ρ c (Proc.devRef .tc r) = m ((c : Thread nD τ).loc r) :=
  (W1_of m ρ c r h0).trans rfl
theorem W2_keeps (c : Dev nD) (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_keeps m ρ c r h0)
theorem W3_keeps (c : Dev nD) (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (W3_of m ρ c r h1).trans (W2_keeps m ρ c r h0 a0)
theorem W4_keeps (c : Dev nD) (r : Ref sig .tc) (h0 : r ∉ hostOps0_W) (a0 : ∀ w, Pipeline.arrRef spec0 w ≠ r) (h1 : r ∉ hostOps1_W)
    (a1 : ∀ w, Pipeline.arrRef spec1 w ≠ r) : W4 m ρ c (Proc.devRef .tc r) = m ((c : Thread nD τ).loc r) :=
  (W4_of_ne m ρ c r a1).trans (W3_keeps m ρ c r h0 a0 h1)
theorem W5_keeps (c : Dev nD) (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) : W5 m ρ c (Proc.devRef .tc r) = m ((c : Thread nD τ).loc r) :=
  (W5_of m ρ c r h2).trans (W4_keeps m ρ c r h0 a0 h1 a1)

/-! The eight arguments are such references: each holds its launch contents at every boundary. -/

theorem W1_main_arg0 (c : Dev nD) : W1 m ρ c (Proc.devRef .tc main_arg0) = m ((c : Thread nD τ).loc main_arg0) :=
  W1_keeps m ρ c main_arg0 (by decide)
theorem W2_main_arg0 (c : Dev nD) : W2 m ρ c (Proc.devRef .tc main_arg0) = m ((c : Thread nD τ).loc main_arg0) :=
  W2_keeps m ρ c main_arg0 (by decide) (by decide)
theorem W3_main_arg0 (c : Dev nD) : W3 m ρ c (Proc.devRef .tc main_arg0) = m ((c : Thread nD τ).loc main_arg0) :=
  W3_keeps m ρ c main_arg0 (by decide) (by decide) (by decide)
theorem W4_main_arg0 (c : Dev nD) : W4 m ρ c (Proc.devRef .tc main_arg0) = m ((c : Thread nD τ).loc main_arg0) :=
  W4_keeps m ρ c main_arg0 (by decide) (by decide) (by decide) (by decide)
theorem W5_main_arg0 (c : Dev nD) : W5 m ρ c (Proc.devRef .tc main_arg0) = m ((c : Thread nD τ).loc main_arg0) :=
  W5_keeps m ρ c main_arg0 (by decide) (by decide) (by decide) (by decide) (by decide)
theorem W1_main_arg1 (c : Dev nD) : W1 m ρ c (Proc.devRef .tc main_arg1) = m ((c : Thread nD τ).loc main_arg1) :=
  W1_keeps m ρ c main_arg1 (by decide)
theorem W2_main_arg1 (c : Dev nD) : W2 m ρ c (Proc.devRef .tc main_arg1) = m ((c : Thread nD τ).loc main_arg1) :=
  W2_keeps m ρ c main_arg1 (by decide) (by decide)
theorem W3_main_arg1 (c : Dev nD) : W3 m ρ c (Proc.devRef .tc main_arg1) = m ((c : Thread nD τ).loc main_arg1) :=
  W3_keeps m ρ c main_arg1 (by decide) (by decide) (by decide)
theorem W4_main_arg1 (c : Dev nD) : W4 m ρ c (Proc.devRef .tc main_arg1) = m ((c : Thread nD τ).loc main_arg1) :=
  W4_keeps m ρ c main_arg1 (by decide) (by decide) (by decide) (by decide)
theorem W5_main_arg1 (c : Dev nD) : W5 m ρ c (Proc.devRef .tc main_arg1) = m ((c : Thread nD τ).loc main_arg1) :=
  W5_keeps m ρ c main_arg1 (by decide) (by decide) (by decide) (by decide) (by decide)
theorem W1_main_arg2 (c : Dev nD) : W1 m ρ c (Proc.devRef .tc main_arg2) = m ((c : Thread nD τ).loc main_arg2) :=
  W1_keeps m ρ c main_arg2 (by decide)
theorem W2_main_arg2 (c : Dev nD) : W2 m ρ c (Proc.devRef .tc main_arg2) = m ((c : Thread nD τ).loc main_arg2) :=
  W2_keeps m ρ c main_arg2 (by decide) (by decide)
theorem W3_main_arg2 (c : Dev nD) : W3 m ρ c (Proc.devRef .tc main_arg2) = m ((c : Thread nD τ).loc main_arg2) :=
  W3_keeps m ρ c main_arg2 (by decide) (by decide) (by decide)
theorem W4_main_arg2 (c : Dev nD) : W4 m ρ c (Proc.devRef .tc main_arg2) = m ((c : Thread nD τ).loc main_arg2) :=
  W4_keeps m ρ c main_arg2 (by decide) (by decide) (by decide) (by decide)
theorem W5_main_arg2 (c : Dev nD) : W5 m ρ c (Proc.devRef .tc main_arg2) = m ((c : Thread nD τ).loc main_arg2) :=
  W5_keeps m ρ c main_arg2 (by decide) (by decide) (by decide) (by decide) (by decide)
theorem W1_main_arg3 (c : Dev nD) : W1 m ρ c (Proc.devRef .tc main_arg3) = m ((c : Thread nD τ).loc main_arg3) :=
  W1_keeps m ρ c main_arg3 (by decide)
theorem W2_main_arg3 (c : Dev nD) : W2 m ρ c (Proc.devRef .tc main_arg3) = m ((c : Thread nD τ).loc main_arg3) :=
  W2_keeps m ρ c main_arg3 (by decide) (by decide)
theorem W3_main_arg3 (c : Dev nD) : W3 m ρ c (Proc.devRef .tc main_arg3) = m ((c : Thread nD τ).loc main_arg3) :=
  W3_keeps m ρ c main_arg3 (by decide) (by decide) (by decide)
theorem W4_main_arg3 (c : Dev nD) : W4 m ρ c (Proc.devRef .tc main_arg3) = m ((c : Thread nD τ).loc main_arg3) :=
  W4_keeps m ρ c main_arg3 (by decide) (by decide) (by decide) (by decide)
theorem W5_main_arg3 (c : Dev nD) : W5 m ρ c (Proc.devRef .tc main_arg3) = m ((c : Thread nD τ).loc main_arg3) :=
  W5_keeps m ρ c main_arg3 (by decide) (by decide) (by decide) (by decide) (by decide)
theorem W1_main_arg4 (c : Dev nD) : W1 m ρ c (Proc.devRef .tc main_arg4) = m ((c : Thread nD τ).loc main_arg4) :=
  W1_keeps m ρ c main_arg4 (by decide)
theorem W2_main_arg4 (c : Dev nD) : W2 m ρ c (Proc.devRef .tc main_arg4) = m ((c : Thread nD τ).loc main_arg4) :=
  W2_keeps m ρ c main_arg4 (by decide) (by decide)
theorem W3_main_arg4 (c : Dev nD) : W3 m ρ c (Proc.devRef .tc main_arg4) = m ((c : Thread nD τ).loc main_arg4) :=
  W3_keeps m ρ c main_arg4 (by decide) (by decide) (by decide)
theorem W4_main_arg4 (c : Dev nD) : W4 m ρ c (Proc.devRef .tc main_arg4) = m ((c : Thread nD τ).loc main_arg4) :=
  W4_keeps m ρ c main_arg4 (by decide) (by decide) (by decide) (by decide)
theorem W5_main_arg4 (c : Dev nD) : W5 m ρ c (Proc.devRef .tc main_arg4) = m ((c : Thread nD τ).loc main_arg4) :=
  W5_keeps m ρ c main_arg4 (by decide) (by decide) (by decide) (by decide) (by decide)
theorem W1_main_arg5 (c : Dev nD) : W1 m ρ c (Proc.devRef .tc main_arg5) = m ((c : Thread nD τ).loc main_arg5) :=
  W1_keeps m ρ c main_arg5 (by decide)
theorem W2_main_arg5 (c : Dev nD) : W2 m ρ c (Proc.devRef .tc main_arg5) = m ((c : Thread nD τ).loc main_arg5) :=
  W2_keeps m ρ c main_arg5 (by decide) (by decide)
theorem W3_main_arg5 (c : Dev nD) : W3 m ρ c (Proc.devRef .tc main_arg5) = m ((c : Thread nD τ).loc main_arg5) :=
  W3_keeps m ρ c main_arg5 (by decide) (by decide) (by decide)
theorem W4_main_arg5 (c : Dev nD) : W4 m ρ c (Proc.devRef .tc main_arg5) = m ((c : Thread nD τ).loc main_arg5) :=
  W4_keeps m ρ c main_arg5 (by decide) (by decide) (by decide) (by decide)
theorem W5_main_arg5 (c : Dev nD) : W5 m ρ c (Proc.devRef .tc main_arg5) = m ((c : Thread nD τ).loc main_arg5) :=
  W5_keeps m ρ c main_arg5 (by decide) (by decide) (by decide) (by decide) (by decide)
theorem W1_main_arg6 (c : Dev nD) : W1 m ρ c (Proc.devRef .tc main_arg6) = m ((c : Thread nD τ).loc main_arg6) :=
  W1_keeps m ρ c main_arg6 (by decide)
theorem W2_main_arg6 (c : Dev nD) : W2 m ρ c (Proc.devRef .tc main_arg6) = m ((c : Thread nD τ).loc main_arg6) :=
  W2_keeps m ρ c main_arg6 (by decide) (by decide)
theorem W3_main_arg6 (c : Dev nD) : W3 m ρ c (Proc.devRef .tc main_arg6) = m ((c : Thread nD τ).loc main_arg6) :=
  W3_keeps m ρ c main_arg6 (by decide) (by decide) (by decide)
theorem W4_main_arg6 (c : Dev nD) : W4 m ρ c (Proc.devRef .tc main_arg6) = m ((c : Thread nD τ).loc main_arg6) :=
  W4_keeps m ρ c main_arg6 (by decide) (by decide) (by decide) (by decide)
theorem W5_main_arg6 (c : Dev nD) : W5 m ρ c (Proc.devRef .tc main_arg6) = m ((c : Thread nD τ).loc main_arg6) :=
  W5_keeps m ρ c main_arg6 (by decide) (by decide) (by decide) (by decide) (by decide)
theorem W1_main_arg7 (c : Dev nD) : W1 m ρ c (Proc.devRef .tc main_arg7) = m ((c : Thread nD τ).loc main_arg7) :=
  W1_keeps m ρ c main_arg7 (by decide)
theorem W2_main_arg7 (c : Dev nD) : W2 m ρ c (Proc.devRef .tc main_arg7) = m ((c : Thread nD τ).loc main_arg7) :=
  W2_keeps m ρ c main_arg7 (by decide) (by decide)
theorem W3_main_arg7 (c : Dev nD) : W3 m ρ c (Proc.devRef .tc main_arg7) = m ((c : Thread nD τ).loc main_arg7) :=
  W3_keeps m ρ c main_arg7 (by decide) (by decide) (by decide)
theorem W4_main_arg7 (c : Dev nD) : W4 m ρ c (Proc.devRef .tc main_arg7) = m ((c : Thread nD τ).loc main_arg7) :=
  W4_keeps m ρ c main_arg7 (by decide) (by decide) (by decide) (by decide)
theorem W5_main_arg7 (c : Dev nD) : W5 m ρ c (Proc.devRef .tc main_arg7) = m ((c : Thread nD τ).loc main_arg7) :=
  W5_keeps m ρ c main_arg7 (by decide) (by decide) (by decide) (by decide) (by decide)

/-! The two results the regions write: the averaging region's result array and the loss region's [1, 1] output, each
    at what its pipeline leaves. -/

theorem W2_main_v40 (c : Dev nD) : W2 m ρ c (Proc.devRef .tc main_v40) = (dat0 (V1 m ρ) c).arrAt 4 cfg0.N :=
  W2_arr m ρ c 4
theorem W4_main_v64 (c : Dev nD) : W4 m ρ c (Proc.devRef .tc main_v64) = (dat1 (V3 m ρ) c).arrAt 3 cfg1.N :=
  W4_arr m ρ c 3

/-! The boundaries after the host stretches, spelt out. -/

theorem W1_eq (c : Dev nD) : W1 m ρ c = StableHlo.after hostOps0 (W0 m ρ c) := rfl
theorem W3_eq (c : Dev nD) : W3 m ρ c = StableHlo.after hostOps1 (W2 m ρ c) := rfl
theorem W5_eq (c : Dev nD) : W5 m ρ c = StableHlo.after hostOps2 (W4 m ρ c) := rfl
theorem V1_eq (c : Dev nD) (b : Ref sig .tc) : V1 m ρ c b = StableHlo.after hostOps0 (W0 m ρ c) (Proc.devRef .tc b) := rfl
theorem V3_eq (c : Dev nD) (b : Ref sig .tc) : V3 m ρ c b = StableHlo.after hostOps1 (W2 m ρ c) (Proc.devRef .tc b) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev noPairs : GSem nD τ sig → Finset Unit := fun _ => ∅
abbrev noLevel : GSem nD τ sig → Unit → ℕ := fun _ _ => 0
/-- What rides beside the buffers through every segment: the generator register at some state, and nothing owed. -/
abbrev beside (c : Dev nD) : sProp 𝕄 := iprop((∃ r, prngReg c r) ∗ ∃ W, owes (c : Thread nD τ) (0 : CellTallies nD τ sig Unit) W)
/-- A host stretch as a segment over the unscoped references from the contents W, beside riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at W5, the generator register at some state. -/
abbrev lastState (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The averaging region over the thread state: entered from every unscoped buffer at W1, left at W2. Its arrays are
    split out of the unscoped buffers and put back at the exit contents; the generator register goes into the invariant and
    comes out; nothing is owed; the kernel has no semaphore of its own. -/
def reg0 : Pipeline.RegionSeg (pcfgs (F := F)) adm (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays0_at_exit m ρ c) (others0_at_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss region over the thread state: entered from every unscoped buffer at W3, left at W4. As the averaging
    region, except that its invariant is its own: it is entered from, and gives back, the invariant of a kernel that
    owns nothing (the hypothesis), which is what the thread state holds. -/
def reg1 : Pipeline.RegionSeg (pcfgs (F := F)) adm (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (H1.body (V3 m ρ) c).loose
  hwaits := Pipeline.hwaits_of_owed_zero _ _ _ _ noPairs noLevel 1 fun _ _ => rfl
  pre c := iprop(StableHlo.held (c : Thread nD τ) (Pipeline.ucRefs τ sig) (W3 m ρ c) ∗ beside c)
  post c := iprop(StableHlo.held (c : Thread nD τ) (Pipeline.ucRefs τ sig) (W4 m ρ c) ∗ beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have enter := H1.enter (V3 m ρ) c
    unfold Pipeline.ΦA at enter
    iintro ⟨Hp, -, Hr⟩
    iapply enter
    isplitl [Hr]; · iexact Hr
    iexact Hp
  hout c := by
    rw [Pipeline.ownSems0_none, show (pdats m ρ 1 c).Φ (Fin.last _) = (dat1 (V3 m ρ) c).Φ (Fin.last cfg1.N) from rfl]
    have leave := H1.leave (V3 m ρ) c
    unfold Pipeline.ΦA at leave
    refine leave.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays1_at_exit m ρ c) (others1_at_exit m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev segs : List (Pipeline.Seg (pcfgs (F := F)) adm (pdats m ρ) () defs₀ 𝒱₀ noPairs noLevel) :=
  [ .host (hostSeg hostOps0 hostOps0_sub hostOps0_fresh (W0 m ρ)),
    .region (reg0 m ρ),
    .host (hostSeg hostOps1 hostOps1_sub hostOps1_fresh (W2 m ρ)),
    .region (reg1 H1 m ρ),
    .host (hostSeg hostOps2 hostOps2_sub hostOps2_fresh (W4 m ρ)) ]

/-- The program is the run of its segments. -/
theorem main_run (c : Dev nD) : main (F := F) c = Pipeline.Seg.run (segs H1 m ρ) := (main_chain c).trans (by chain_rfl)

include H1 in
set_option backward.isDefEq.respectTransparency.types false in
/-- From any memory with zero counters, every weakly fair execution of the program on the TensorCores terminates, nothing
    faulting, and every final memory holds, at every unscoped buffer, the contents the fold ends with. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ noPairs noLevel m ρ main (segs H1 m ρ)
    (fun c Q => by rw [main_run H1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := lastState m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ beside c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

include H1 in
/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r (h : ∀ c : Dev nD, ∀ b ∈ Pipeline.ucRefs τ sig, r.2.mem ((c : Thread nD τ).1, b) = W5 m ρ c b) c =>
    ⟨(h c _ (mem_unscoped main_arg0 (by decide))).trans (W5_main_arg0 m ρ c),
     (h c _ (mem_unscoped main_arg1 (by decide))).trans (W5_main_arg1 m ρ c),
     (h c _ (mem_unscoped main_arg2 (by decide))).trans (W5_main_arg2 m ρ c),
     (h c _ (mem_unscoped main_arg3 (by decide))).trans (W5_main_arg3 m ρ c),
     (h c _ (mem_unscoped main_arg4 (by decide))).trans (W5_main_arg4 m ρ c),
     (h c _ (mem_unscoped main_arg5 (by decide))).trans (W5_main_arg5 m ρ c),
     (h c _ (mem_unscoped main_arg6 (by decide))).trans (W5_main_arg6 m ρ c),
     (h c _ (mem_unscoped main_arg7 (by decide))).trans (W5_main_arg7 m ρ c)⟩)
    (run_all H1 m ρ)

end Cert.KernelIdeal.Hand

end
-- ==== Proof.KI.BprCases.lean ====
/-
  The loss kernel (the second pallas_call): eight grid points over blocks of 512 rows of three [4096, 64] operands, a [1, 1]
  scratch accumulator carried from point to point, a [1, 1] output written at the last point only.
  This module: the kernel body's three control cases as triples — the first point (the accumulator is zeroed, then the
  block's sum added), a middle point (the block's sum added to what the point before left), the last point (the same, then
  the accumulator times 2^-12 stored to the output) — over the payload functions of the printed body.
-/
import proofs.«160565_j73220602462343_1_alg».proof.Proof.Gen.KernelIdeal.Launch
import proofs.«160565_j73220602462343_1_alg».proof.Proof.Gen.KernelIdeal.Skeleton
import proofs.«160565_j73220602462343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, from the grid coordinate -/

/-- "This is the first point": the body's first branch (it zeroes the accumulator). -/
abbrev condFirst (i : grid1.Coords) : Prop :=
  (Scalar.cmpi .ne (Scalar.extui (Scalar.cmpi .eq (BitVec.ofNat 32 (i 0).val) 0#32)) 0#32) = 1#1
/-- "This is the last point": the body's second branch (it writes the output). -/
abbrev condLast (i : grid1.Coords) : Prop := k1_cond2 i = 1#1

theorem hFirst : ∀ t : Fin cfg1.N, condFirst (grid1.coords t) ↔ t.val % 8 = 0 :=
  (by decide +kernel : ∀ t : Fin grid1.N, condFirst (grid1.coords t) ↔ t.val % 8 = 0)
theorem hLast : ∀ t : Fin cfg1.N, condLast (grid1.coords t) ↔ t.val % 8 = 7 :=
  (by decide +kernel : ∀ t : Fin grid1.N, condLast (grid1.coords t) ↔ t.val % 8 = 7)

/-- The three operand windows are live at every point; the output window is idle (and not written back) except at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-! ## The body, case by case, on whole memrefs -/

theorem hz2 : (![0, 0] : Fin 2 → Nat) = fun _ => 0 := funext fun a => by fin_cases a <;> rfl

/-- A whole-shape rectangle at offset zero holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A buffer read after a list of stores whose LAST one covers it whole holds that store's payload. -/
theorem read_writes_whole {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (P : S.Idx → Elt F e)
    (L : List (View.Piece (Elt F) S e)) :
    View.read (Elt F) v (v.writes (Elt F) f (⟨Rect.unit off S.size inb, P⟩ :: L)) = P := by
  rw [View.read_writes_eq_canon _ _ _ (fun y => ⟨_, List.mem_cons_self, mem_unit_zero h inb y⟩), View.canon_cons_unit_zero h]

set_option maxHeartbeats 4000000 in
/-- First point: the accumulator, whatever it held, ends at the block's sum added to zero; the output buffer is not touched. -/
theorem run_first (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : condFirst i) (hc1 : ¬condLast i)
    (x0 x1 x2 : Vec F S512x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k1_pay3 x0 x1 x2 k1_pay2)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  refine (read_writes_whole _ _ hz2 _ _ _).trans ?_
  simp only [View.readAt_eq_ld, hf1, hf2, hf3, View.ld_unit_zero (S := S512x64) hz2]
  exact congrArg (k1_pay3 x0 x1 x2) (View.readCov_unit_zero (S := S1x1) _ hz2 _ _)

set_option maxHeartbeats 4000000 in
/-- A middle point: the accumulator goes from what it held to that plus the block's sum; the output buffer is not touched. -/
theorem run_mid (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : ¬condFirst i) (hc1 : ¬condLast i)
    (x0 x1 x2 : Vec F S512x64 .f32) (xo xs : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xo ∗ owns (c : Thread nD τ) arg5 fullShare (k1_pay3 x0 x1 x2 xs)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  refine (read_writes_whole _ _ hz2 _ _ _).trans ?_
  simp only [View.readAt_eq_ld, hf1, hf2, hf3, View.ld_unit_zero (S := S512x64) hz2, hf5, View.ld_unit_zero (S := S1x1) hz2]

set_option maxHeartbeats 4000000 in
/-- The last point: the accumulator goes from what it held to that plus the block's sum, and the output buffer, whatever it held, ends at the new accumulator times 2^-12. -/
theorem run_last (c : Dev nD) (E : Set ℕ) (i : grid1.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x1 .f32) (harg4 : arg4.IsWhole)
    (arg5 : Memref sig .tc .vmem S1x1 .f32) (harg5 : arg5.IsWhole) (hc0 : ¬condFirst i) (hc1 : condLast i)
    (x0 x1 x2 : Vec F S512x64 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 (k1_pay3 x0 x1 x2 xs)) ∗ owns (c : Thread nD τ) arg5 fullShare (k1_pay3 x0 x1 x2 xs)) -∗ K ⟨⟩))
      ⊢ wp frame (wpE (defs₀ (F := F)) Variants.none c none) E (cc1__bpr_kernel i arg1 harg1 arg2 harg2 arg3 harg3 arg4 harg4 arg5 harg5) K := by
  simp only [cc1__bpr_kernel_eq_skeleton]; unfold cc1__bpr_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    refine (read_writes_whole _ _ hz2 _ _ _).trans ?_
    simp only [View.readAt_eq_ld, hf1, hf2, hf3, View.ld_unit_zero (S := S512x64) hz2, hf5, View.ld_unit_zero (S := S1x1) hz2]
    exact congrArg k1_pay1 (View.readCov_unit_zero (S := S1x1) _ hz2 _ _)
  iexists _; isplitr
  swap; · iexact H5
  ipureintro
  sl_unfold_run_names
  refine (read_writes_whole _ _ hz2 _ _ _).trans ?_
  simp only [View.readAt_eq_ld, hf1, hf2, hf3, View.ld_unit_zero (S := S512x64) hz2, hf5, View.ld_unit_zero (S := S1x1) hz2]

end Cert.KernelIdeal.Hand

end
-- ==== Proof.KI.Bpr.lean ====
/-
  The loss kernel's region, its body obligation: at every grid point the kernel body, run from the region's invariant and
  the windows' current buffers, returns the invariant at the next point and the buffers as the proof data says. The point's
  control case is decided from its number (the first point, a middle point, the last point) and that case's triple applies;
  the scratch accumulator is handed to the body at what the point before left and taken back at this point's value. Also:
  the invariant before the first point is the class's, and after the last point it gives the class's invariant back.
-/
import proofs.«160565_j73220602462343_1_alg».proof.Proof.KI.BprData
import proofs.«160565_j73220602462343_1_alg».proof.Proof.KI.BprCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Each operand window's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The class's invariant with the scratch as a memref owned at some contents. -/
theorem PhiA1_eq (c : Dev nD) :
    (Pipeline.ΦA spec1 c : sProp 𝕄)
      = iprop(othersWith c iprop(∃ d, owns (c : Thread nD τ) scM1 fullShare d) ∗ (∃ r, prngReg c r)) := by
  unfold Pipeline.ΦA othersWith; rw [scopedRest1_eq]; simp only [scM1, owns_whole]; try rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have hz : t.val = 0 := by omega
    have hl : ¬ t.val % 8 = 7 := by omega
    rw [Dat.leavesExact_idle (dat1 V c) 3 t (idleAt1_3 t (fun h => hl ((hLast t).mp h))) (noFlush1_3 t (fun h => hl ((hLast t).mp h)))]
    rw [accAt_first V c t hz]
    rw [PhiS_castSucc V c t, PhiS_zero V c _ _ hz, PhiA1_eq]
    unfold othersWith
    iintro ⟨⟨⟨R0, R1, R2, R3, R4, R5, R6, R7, R8, R9, HS⟩, Hg⟩, Ho, ⟨%d0, H0⟩, ⟨%d1, H1⟩, ⟨%d2, H2⟩, ⟨%d3, H3⟩⟩
    iapply (run_first c Set.univ (grid1.coords t) _ _ _ _ _ _ _ _ _ _ ((hFirst t).mpr h0) (fun h => hl ((hLast t).mp h)) (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [R0 R1 R2 R3 R4 R5 R6 R7 R8 R9 HS Hg]
    · isplitl [R0 R1 R2 R3 R4 R5 R6 R7 R8 R9 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact HS
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 8 = 7
    · rw [show (dat1 V c).leavesExact 3 t = owns (c : Thread nD τ) (st1_3 t) fullShare ((dat1 V c).after 3 t) from by
        unfold Dat.leavesExact; rw [liveAt1_3 t ((hLast t).mpr h1)], after1_3]
      rw [accAt_later V c t hz]
      rw [PhiS_castSucc V c t, PhiS_pos V c _ _ hz]
      unfold othersWith
      iintro ⟨⟨⟨R0, R1, R2, R3, R4, R5, R6, R7, R8, R9, HS⟩, Hg⟩, Ho, ⟨%d0, H0⟩, ⟨%d1, H1⟩, ⟨%d2, H2⟩, ⟨%d3, H3⟩⟩
      iapply (run_last c Set.univ (grid1.coords t) _ _ _ _ _ _ _ _ _ _ (fun h => h0 ((hFirst t).mp h)) ((hLast t).mpr h1) (iblk1 V c 0 t) (iblk1 V c 1 t) (iblk1 V c 2 t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R0 R1 R2 R3 R4 R5 R6 R7 R8 R9 HS Hg]
      · isplitl [R0 R1 R2 R3 R4 R5 R6 R7 R8 R9 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hLast t).mp h))) (noFlush1_3 t (fun h => h1 ((hLast t).mp h)))]
      rw [accAt_later V c t hz]
      rw [PhiS_castSucc V c t, PhiS_pos V c _ _ hz]
      unfold othersWith
      iintro ⟨⟨⟨R0, R1, R2, R3, R4, R5, R6, R7, R8, R9, HS⟩, Hg⟩, Ho, ⟨%d0, H0⟩, ⟨%d1, H1⟩, ⟨%d2, H2⟩, ⟨%d3, H3⟩⟩
      iapply (run_mid c Set.univ (grid1.coords t) _ _ _ _ _ _ _ _ _ _ (fun h => h0 ((hFirst t).mp h)) (fun h => h1 ((hLast t).mp h)) (iblk1 V c 0 t) (iblk1 V c 1 t) (iblk1 V c 2 t) ((dat1 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R0 R1 R2 R3 R4 R5 R6 R7 R8 R9 HS Hg]
      · isplitl [R0 R1 R2 R3 R4 R5 R6 R7 R8 R9 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the scratch holds is forgotten. -/
theorem hout1 (c : Dev nD) : (dat1 V c).Φ (Fin.last cfg1.N) ⊢ Pipeline.ΦA spec1 c := by
  have hne : (Fin.last cfg1.N).val ≠ 0 := by rw [Fin.val_last]; have : cfg1.N = 8 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold othersWith
  iintro ⟨⟨R0, R1, R2, R3, R4, R5, R6, R7, R8, R9, HS⟩, Hg⟩
  isplitl [R0 R1 R2 R3 R4 R5 R6 R7 R8 R9 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS
  iexact Hg

end Region1

end Cert.KernelIdeal.Hand

end
-- ==== Proof.Spec.lean ====
/-
  The two programs' shared host arithmetic, named once. Both programs build the [150000, 64] table x0 (users' rows above
  items' rows), apply the same sparse step three times (gather the rows an edge reads, scale by the edge's weight,
  scatter-add into the row the edge writes), average the four tables, slice the average back into users and items and
  pick 4096 rows of each by (wrapped) index. The reference then finishes on the host: row dot products, softplus of their
  difference, the mean. Naming these steps lets the equivalence proof compare the two programs step by step without ever
  opening the sparse step.
-/
import proofs.«160565_j73220602462343_1_alg».proof.ReferenceIdeal
import proofs.«160565_j73220602462343_1_alg».proof.Proof.Gen.ReferenceIdeal
import Idealize.ShloMosaic.PureOps

noncomputable section

namespace Cert.Spec

open Idealize.ShloMosaic Cert.ReferenceIdeal Cert.ReferenceIdeal.Gen

variable {F : FTy → Type} [FloatOps F]

/-- An int32 array of a shape, a float32 array of a shape. -/
abbrev TI (F : FTy → Type) (S : Shape) : Type := (⟨S, .i32⟩ : BufTy).Contents (Elt F)
abbrev TF (F : FTy → Type) (S : Shape) : Type := (⟨S, .f32⟩ : BufTy).Contents (Elt F)

/-- x0: the users' table above the items' table. -/
def emb0 (a3 : TF F S100000x64) (a4 : TF F S50000x64) : TF F S150000x64 :=
  concatenate S150000x64 0 [⟨S100000x64, a3⟩, ⟨S50000x64, a4⟩] concatenates_S100000x64_S50000x64_S150000x64_d0

/-- An edge list's column indices as a column of start indices, a negative one wrapped by 150000. -/
def wrapE (a1 : TI F S3200000) : TI F S3200000x1 :=
  broadcastInDim S3200000x1 ![0] bcast_S3200000_S3200000x1_0 (select (cmpi .slt a1 (broadcastInDim S3200000 ![] bcast_S_S3200000 (constantI S_ 32 0#32))) (addi a1 (broadcastInDim S3200000 ![] bcast_S_S3200000 (constantI S_ 32 150000#32))) a1)

/-- One sparse step: y[row e] += val e · x[col e] over all edges e, from zero. -/
def hop (a0 a1 : TI F S3200000) (a2 : TF F S3200000) (x : TF F S150000x64) : TF F S150000x64 :=
  Host.scatterAdd scatter_S150000x64_S3200000x1_S3200000x64_1_0_0_1 (broadcastInDim S150000x64 ![] bcast_S_S150000x64 (constant S_ .f32 0x00000000#32)) (broadcastInDim S3200000x1 ![0] bcast_S3200000_S3200000x1_0 a0) (mulf (broadcastInDim S3200000x64 ![0, 1] bcast_S3200000x1_S3200000x64_0_1 (broadcastInDim S3200000x1 ![0] bcast_S3200000_S3200000x1_0 a2)) (Host.gather gather_S150000x64_S3200000x1_S3200000x64_1_0_n_n_0_1_164 x (wrapE a1)))

/-- The reference's average of the four tables: their sum divided by 4. -/
def lightR (x0 x1 x2 x3 : TF F S150000x64) : TF F S150000x64 :=
  Host.divf (addf (addf (addf x0 x1) x2) x3) (broadcastInDim S150000x64 ![] bcast_S_S150000x64 (constant S_ .f32 0x40800000#32))

/-- A batch's indices as a column of start indices, a negative one wrapped by n. -/
def wrapB (n : BitVec 32) (a : TI F S4096) : TI F S4096x1 :=
  broadcastInDim S4096x1 ![0] bcast_S4096_S4096x1_0 (select (cmpi .slt a (broadcastInDim S4096 ![] bcast_S_S4096 (constantI S_ 32 0#32))) (addi a (broadcastInDim S4096 ![] bcast_S_S4096 (constantI S_ 32 n))) a)

/-- The batch's user rows of the averaged table (its first 100000 rows). -/
def pickU (L : TF F S150000x64) (a5 : TI F S4096) : TF F S4096x64 :=
  Host.gather gather_S100000x64_S4096x1_S4096x64_1_0_n_n_0_1_164 (extractStridedSlice S100000x64 ![0, 0] L slices_S150000x64_S100000x64_0_0) (wrapB 100000#32 a5)

/-- The batch's item rows of the averaged table (its last 50000 rows). -/
def pickI (L : TF F S150000x64) (a : TI F S4096) : TF F S4096x64 :=
  Host.gather gather_S50000x64_S4096x1_S4096x64_1_0_n_n_0_1_164 (extractStridedSlice S50000x64 ![100000, 0] L slices_S150000x64_S50000x64_100000_0) (wrapB 50000#32 a)

/-- The reference's loss of the three row batches: mean over the batch of softplus(neg − pos), pos and neg the row dot
    products, softplus in jnp's spelling (the maximum plus log1p of exp of minus the absolute value, behind a NaN guard). -/
def refLoss (u p n : TF F S4096x64) : TF F S_ :=
  Host.divf (Host.reduceAdd (select (cmpf .une (subf (subf (Host.reduceAdd (mulf u n) (constant S_ .f32 0x00000000#32) reducesTo_S4096x64_S4096_d1 h_S_) (Host.reduceAdd (mulf u p) (constant S_ .f32 0x00000000#32) reducesTo_S4096x64_S4096_d1 h_S_)) (broadcastInDim S4096 ![] bcast_S_S4096 (constant S_ .f32 0x00000000#32))) (subf (subf (Host.reduceAdd (mulf u n) (constant S_ .f32 0x00000000#32) reducesTo_S4096x64_S4096_d1 h_S_) (Host.reduceAdd (mulf u p) (constant S_ .f32 0x00000000#32) reducesTo_S4096x64_S4096_d1 h_S_)) (broadcastInDim S4096 ![] bcast_S_S4096 (constant S_ .f32 0x00000000#32)))) (addf (subf (Host.reduceAdd (mulf u n) (constant S_ .f32 0x00000000#32) reducesTo_S4096x64_S4096_d1 h_S_) (Host.reduceAdd (mulf u p) (constant S_ .f32 0x00000000#32) reducesTo_S4096x64_S4096_d1 h_S_)) (broadcastInDim S4096 ![] bcast_S_S4096 (constant S_ .f32 0x00000000#32))) (addf (maximumf (subf (Host.reduceAdd (mulf u n) (constant S_ .f32 0x00000000#32) reducesTo_S4096x64_S4096_d1 h_S_) (Host.reduceAdd (mulf u p) (constant S_ .f32 0x00000000#32) reducesTo_S4096x64_S4096_d1 h_S_)) (broadcastInDim S4096 ![] bcast_S_S4096 (constant S_ .f32 0x00000000#32))) (Host.log1p (Host.exp (Host.negf (Host.absf (subf (subf (Host.reduceAdd (mulf u n) (constant S_ .f32 0x00000000#32) reducesTo_S4096x64_S4096_d1 h_S_) (Host.reduceAdd (mulf u p) (constant S_ .f32 0x00000000#32) reducesTo_S4096x64_S4096_d1 h_S_)) (broadcastInDim S4096 ![] bcast_S_S4096 (constant S_ .f32 0x00000000#32))))))))) (constant S_ .f32 0x00000000#32) reducesTo_S4096_S_d0 h_S_) (constant S_ .f32 0x45800000#32)

/-- The reference's whole result from the eight arguments. -/
def refResult (a0 a1 : TI F S3200000) (a2 : TF F S3200000) (a3 : TF F S100000x64) (a4 : TF F S50000x64) (a5 a6 a7 : TI F S4096) : TF F S_ :=
  refLoss
    (pickU (lightR (emb0 a3 a4) (hop a0 a1 a2 (emb0 a3 a4)) (hop a0 a1 a2 (hop a0 a1 a2 (emb0 a3 a4))) (hop a0 a1 a2 (hop a0 a1 a2 (hop a0 a1 a2 (emb0 a3 a4))))) a5)
    (pickI (lightR (emb0 a3 a4) (hop a0 a1 a2 (emb0 a3 a4)) (hop a0 a1 a2 (hop a0 a1 a2 (emb0 a3 a4))) (hop a0 a1 a2 (hop a0 a1 a2 (hop a0 a1 a2 (emb0 a3 a4))))) a6)
    (pickI (lightR (emb0 a3 a4) (hop a0 a1 a2 (emb0 a3 a4)) (hop a0 a1 a2 (hop a0 a1 a2 (emb0 a3 a4))) (hop a0 a1 a2 (hop a0 a1 a2 (hop a0 a1 a2 (emb0 a3 a4))))) a7)

end Cert.Spec

end
-- ==== Proof.RefRun.lean ====
/-
  The reference program's run: every weakly fair execution of its @main terminates with the result buffer holding the
  reference's value as the named host steps compose it (Spec.lean's refResult of the eight argument arrays) and every
  argument array unchanged. The operations' list and its side facts are the reference's own (RefOps.lean); the run is
  the library's run of a list of host operations, its composed term read back against the named steps.
-/
import proofs.«160565_j73220602462343_1_alg».proof.Proof.RefOps
import proofs.«160565_j73220602462343_1_alg».proof.Proof.Spec

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The reference's value from a launch memory: the named steps applied to the eight argument arrays. -/
def refOf (m : (ℓ : Loc nD τ sig) → Buf (Elt F) ℓ) (c : Dev nD) : Buf (Elt F) ((c.tc : Thread nD τ).loc main_v75) :=
  Cert.Spec.refResult (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxRecDepth 8192 in
set_option maxHeartbeats 43600000 in
/-- From any memory with zero counters every weakly fair execution of the reference's @main terminates, the result at
    refOf of the launch memory, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = refOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v75).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Hand

end
-- ==== Proof.KI.HostValues.lean ====
/-
  What the host lines before each pallas_call leave, as the named host steps of Spec.lean: the four tables x0..x3 the
  averaging kernel reads (the concatenated embedding table and one, two, three sparse steps applied to it), and the three
  row batches the loss kernel reads (4096 wrapped-index rows of the users' and the items' part of the averaged table).
-/
import proofs.«160565_j73220602462343_1_alg».proof.Proof.Gen.KernelIdeal.Launch
import proofs.«160565_j73220602462343_1_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

section
variable (W : Valuation τ sig (Elt F))

/-- x0, the concatenated table. -/
def x0Of : Cert.Spec.TF F Cert.ReferenceIdeal.S150000x64 :=
  Cert.Spec.emb0 (F := F) (W (Proc.devRef .tc main_arg3)) (W (Proc.devRef .tc main_arg4))
/-- One sparse step over the launch's edge lists. -/
def stepOf (x : Cert.Spec.TF F Cert.ReferenceIdeal.S150000x64) : Cert.Spec.TF F Cert.ReferenceIdeal.S150000x64 :=
  Cert.Spec.hop (F := F) (W (Proc.devRef .tc main_arg0)) (W (Proc.devRef .tc main_arg1)) (W (Proc.devRef .tc main_arg2)) x

set_option maxRecDepth 8192 in
set_option maxHeartbeats 4000000 in
theorem host0_v0 : StableHlo.after hostOps0 W (Proc.devRef .tc main_v0) = x0Of W := by
  after_results_simp <;> rfl

set_option maxRecDepth 8192 in
set_option maxHeartbeats 4000000 in
theorem host0_v13 : StableHlo.after hostOps0 W (Proc.devRef .tc main_v13) = stepOf W (x0Of W) := by
  after_results_simp <;> rfl

set_option maxRecDepth 8192 in
set_option maxHeartbeats 4000000 in
theorem host0_v26 : StableHlo.after hostOps0 W (Proc.devRef .tc main_v26) = stepOf W (stepOf W (x0Of W)) := by
  after_results_simp <;> rfl

set_option maxRecDepth 8192 in
set_option maxHeartbeats 4000000 in
theorem host0_v39 : StableHlo.after hostOps0 W (Proc.devRef .tc main_v39) = stepOf W (stepOf W (stepOf W (x0Of W))) := by
  after_results_simp <;> rfl

set_option maxRecDepth 8192 in
set_option maxHeartbeats 4000000 in
/-- The batch's user rows, item rows and negative-item rows of the averaged table, as the lines between the two kernels leave them. -/
theorem host1_v49 : StableHlo.after hostOps1 W (Proc.devRef .tc main_v49)
    = Cert.Spec.pickU (F := F) (W (Proc.devRef .tc main_v40)) (W (Proc.devRef .tc main_arg5)) := by
  after_results_simp <;> rfl

set_option maxRecDepth 8192 in
set_option maxHeartbeats 4000000 in
theorem host1_v56 : StableHlo.after hostOps1 W (Proc.devRef .tc main_v56)
    = Cert.Spec.pickI (F := F) (W (Proc.devRef .tc main_v40)) (W (Proc.devRef .tc main_arg6)) := by
  after_results_simp <;> rfl

set_option maxRecDepth 8192 in
set_option maxHeartbeats 4000000 in
theorem host1_v63 : StableHlo.after hostOps1 W (Proc.devRef .tc main_v63)
    = Cert.Spec.pickI (F := F) (W (Proc.devRef .tc main_v40)) (W (Proc.devRef .tc main_arg7)) := by
  after_results_simp <;> rfl

/-- The last line re-lays the loss kernel's [1, 1] output as a scalar. -/
theorem host2_v65 : StableHlo.after hostOps2 W (Proc.devRef .tc main_v65)
    = shapeCast S_ (W (Proc.devRef .tc main_v64)) shapeCasts_S1x1_S_ := by
  after_results_simp <;> rfl

end

end Cert.KernelIdeal.Hand

end
-- ==== Proof.KI.Sum4Value.lean ====
/-
  The result array of region 0, as one function of the four arrays the region reads.

  Point t of the grid writes back rows 5000·t … 5000·t + 4999 of the result, and what it writes is the body's average
  of the same rows of the four inputs: every window's index map sends point t to block (t, 0). The body's operations are
  entry by entry, so the block point t writes is the restriction to those rows of ONE array, the average of the four
  whole arrays. The thirty blocks cover all 150000 rows (row r lies in block r / 5000), so after the region the result
  array is that average.
-/
import proofs.«160565_j73220602462343_1_alg».proof.Proof.KI.Sum4
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The origin of a rank-2 block, spelt as the constant zero. -/
theorem origin2 : (![0, 0] : Fin 2 → Nat) = fun _ => 0 := funext fun a => by fin_cases a <;> rfl

/-- The body's stored value is the entrywise ((x0 + x1) + x2 + x3) · 0.25 of the blocks it loaded: its casts are to the
    blocks' own shape. -/
theorem avg_of_blocks (x0 x1 x2 x3 : Vec F S5000x64 .f32) :
    k0_pay1 x0 x1 x2 x3
      = mulf (addf (addf (addf (x0 : FVec F S5000x64 .f32) x1) x2) x3) (broadcast S5000x64 (Scalar.ofBits .f32 0x3E800000#32 : F .f32)) := by
  unfold k0_pay1
  simp only [shapeCast_self]

/-- Every window's index map sends grid point t to block (t, 0): decided over the thirty points. -/
theorem block_of_point : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- What point t writes back is block t of the average of the four arrays as the region finds them. -/
theorem flushed4_eq (c : Dev nD) (t : Fin cfg0.N) :
    (dat0 V c).flushed 4 t
      = ((cfg0.win 4).blk t).view.read (Elt F) (light4 (V c main_v0) (V c main_v13) (V c main_v26) (V c main_v39)) := by
  show (cfg0.win 4).cut (grid0.coords t) ((dat0 V c).after 4 t) = _
  rw [after0_4]
  unfold out0_4
  rw [View.canon_unit_zero origin2]
  simp only [View.ld_unit_zero (S := S5000x64) origin2]
  rw [avg_of_blocks]
  obtain ⟨⟨p0, q0⟩, ⟨p1, q1⟩, ⟨p2, q2⟩, ⟨p3, q3⟩, p4, q4⟩ := block_of_point t
  funext j
  show FloatOps.mulf (FloatOps.addf (FloatOps.addf (FloatOps.addf
        (V c main_v0 (((cfg0.win 0).blk t).view.emb j)) (V c main_v13 (((cfg0.win 1).blk t).view.emb j)))
        (V c main_v26 (((cfg0.win 2).blk t).view.emb j))) (V c main_v39 (((cfg0.win 3).blk t).view.emb j)))
        (Scalar.ofBits .f32 0x3E800000#32 : F .f32)
    = FloatOps.mulf (FloatOps.addf (FloatOps.addf (FloatOps.addf
        (V c main_v0 (((cfg0.win 4).blk t).view.emb j)) (V c main_v13 (((cfg0.win 4).blk t).view.emb j)))
        (V c main_v26 (((cfg0.win 4).blk t).view.emb j))) (V c main_v39 (((cfg0.win 4).blk t).view.emb j)))
        (Scalar.ofBits .f32 0x3E800000#32 : F .f32)
  have hj0 : (j 0).val < 5000 := (j 0).isLt
  have hj1 : (j 1).val < 64 := (j 1).isLt
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 64 + 1 * (j 1).val = win0_4.index t (1 : Fin 2) * 64 + 1 * (j 1).val; omega
  have h3 : ((cfg0.win 3).blk t).view.emb j = ((cfg0.win 4).blk t).view.emb j := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 64 + 1 * (j 1).val = win0_4.index t (1 : Fin 2) * 64 + 1 * (j 1).val; omega
  rw [h0, h1, h2, h3]

/-- A row-and-column index of the result lies in point t's block exactly when, on each axis, its coordinate lies in
    the block's range there. -/
theorem mem_block4 (t : Fin cfg0.N) (i : S150000x64.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v40).slice (win0_4.rect t)).set ↔ _
  rw [View.set_slice_whole, Rect.mem_set_unit]
  exact Iff.rfl

/-- Every index of the result is in some point's block, and every point writes back: row r is in block r / 5000. -/
theorem all_rows_written (i : S150000x64.Idx) :
    ∃ t : Fin cfg0.N, (cfg0.win 4).flush t = true ∧ i ∈ ((cfg0.win 4).blk t).view.set := by
  have hN : grid0.N = 30 := N_0
  have hi0 : (i 0).val < 150000 := (i 0).isLt
  have hi1 : (i 1).val < 64 := (i 1).isLt
  have ht : (i 0).val / 5000 < cfg0.N := by show (i 0).val / 5000 < grid0.N; omega
  obtain ⟨-, -, -, -, p4, q4⟩ := block_of_point ⟨(i 0).val / 5000, ht⟩
  have p4' : win0_4.index ⟨(i 0).val / 5000, ht⟩ (0 : Fin 2) = (i 0).val / 5000 := p4
  refine ⟨⟨(i 0).val / 5000, ht⟩, flush0_4 _, ?_⟩
  rw [mem_block4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 64 ≤ (i 1).val
      ∧ (i 1).val < win0_4.index ⟨(i 0).val / 5000, ht⟩ (1 : Fin 2) * 64 + 64
    omega

/-- After the region the result array is the average of the four arrays the region found. -/
theorem sum4_final (c : Dev nD) :
    (dat0 (F := F) V c).arrAt 4 cfg0.N = light4 (V c main_v0) (V c main_v13) (V c main_v26) (V c main_v39) :=
  (dat0 V c).arrAt_eq_of_cover 4 _ (fun t _ => flushed4_eq V c t) all_rows_written

end Cert.KernelIdeal.Hand

end
-- ==== Proof.KI.BprValue.lean ====
/-
  The loss kernel's region read off its proof data: what the [1, 1] result array holds after the region, as a function
  of the three [4096, 64] arrays the region reads.

  Every operand window's index map sends grid point t to block (t, 0), so the block a point is handed is rows
  512·t … 512·t + 511 of its array. The accumulator the point leaves is therefore the whole-array recursion: zero, then one
  block's sum per point. The result window's one block is the whole [1, 1] array and is written back at the last point
  only, where it holds the accumulator after all eight points times 2^-12.
-/
import proofs.«160565_j73220602462343_1_alg».proof.Proof.KI.BprData
import proofs.«160565_j73220602462343_1_alg».proof.Proof.KI.Core
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The three operand windows' index maps send grid point t to block (t, 0), the result window's to block (0, 0):
    decided over the eight points. -/
theorem block_of_point1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0) :=
  (by decide +kernel : ∀ t : Fin grid1.N, _)

/-- A grid point's number is below 8. -/
theorem point_lt (t : Fin cfg1.N) : t.val < 8 := lt_of_lt_of_eq t.isLt N_1

/-- The first operand's block at point t is rows 512·t … of its array. -/
theorem block_rows0 (c : Dev nD) (t : Fin cfg1.N) :
    iblk1 V c 0 t = rowsBlock (V c main_v49) t.val (point_lt t) := by
  obtain ⟨⟨p0, q0⟩, -, -, -⟩ := block_of_point1 t
  unfold iblk1
  funext y
  show V c main_v49 (((cfg1.win 0).blk t).view.emb y) = V c main_v49 _
  refine congrArg (V c main_v49) ?_
  funext a; apply Fin.ext
  match a with
  | ⟨0, _⟩ => show win1_0.index t (0 : Fin 2) * 512 + 1 * (y 0).val = 512 * t.val + (y 0).val; omega
  | ⟨1, _⟩ => show win1_0.index t (1 : Fin 2) * 64 + 1 * (y 1).val = (y 1).val; omega

/-- The second operand's block at point t is rows 512·t … of its array. -/
theorem block_rows1 (c : Dev nD) (t : Fin cfg1.N) :
    iblk1 V c 1 t = rowsBlock (V c main_v56) t.val (point_lt t) := by
  obtain ⟨-, ⟨p1, q1⟩, -, -⟩ := block_of_point1 t
  unfold iblk1
  funext y
  show V c main_v56 (((cfg1.win 1).blk t).view.emb y) = V c main_v56 _
  refine congrArg (V c main_v56) ?_
  funext a; apply Fin.ext
  match a with
  | ⟨0, _⟩ => show win1_1.index t (0 : Fin 2) * 512 + 1 * (y 0).val = 512 * t.val + (y 0).val; omega
  | ⟨1, _⟩ => show win1_1.index t (1 : Fin 2) * 64 + 1 * (y 1).val = (y 1).val; omega

/-- The third operand's block at point t is rows 512·t … of its array. -/
theorem block_rows2 (c : Dev nD) (t : Fin cfg1.N) :
    iblk1 V c 2 t = rowsBlock (V c main_v63) t.val (point_lt t) := by
  obtain ⟨-, -, ⟨p2, q2⟩, -⟩ := block_of_point1 t
  unfold iblk1
  funext y
  show V c main_v63 (((cfg1.win 2).blk t).view.emb y) = V c main_v63 _
  refine congrArg (V c main_v63) ?_
  funext a; apply Fin.ext
  match a with
  | ⟨0, _⟩ => show win1_2.index t (0 : Fin 2) * 512 + 1 * (y 0).val = 512 * t.val + (y 0).val; omega
  | ⟨1, _⟩ => show win1_2.index t (1 : Fin 2) * 64 + 1 * (y 1).val = (y 1).val; omega

/-- The accumulator a point leaves, computed from the blocks, is the whole-array recursion one step further. -/
theorem accAt_eq (c : Dev nD) : ∀ (n : ℕ) (hn : n < cfg1.N),
    accAt V c n hn = accUpTo (V c main_v49) (V c main_v56) (V c main_v63) (n + 1) (point_lt ⟨n, hn⟩)
  | 0, hn => by
    show k1_pay3 (iblk1 V c 0 ⟨0, hn⟩) (iblk1 V c 1 ⟨0, hn⟩) (iblk1 V c 2 ⟨0, hn⟩) k1_pay2 = _
    rw [block_rows0 V c ⟨0, hn⟩, block_rows1 V c ⟨0, hn⟩, block_rows2 V c ⟨0, hn⟩]
    rfl
  | n + 1, hn => by
    show k1_pay3 (iblk1 V c 0 ⟨n + 1, hn⟩) (iblk1 V c 1 ⟨n + 1, hn⟩) (iblk1 V c 2 ⟨n + 1, hn⟩)
        (accAt V c n (Nat.lt_of_succ_lt hn)) = _
    rw [block_rows0 V c ⟨n + 1, hn⟩, block_rows1 V c ⟨n + 1, hn⟩, block_rows2 V c ⟨n + 1, hn⟩,
      accAt_eq c n (Nat.lt_of_succ_lt hn)]
    rfl

/-- What the last point writes back is the one block of the [1, 1] array holding the final accumulator times 2^-12. -/
theorem flushed3_eq (c : Dev nD) (t : Fin cfg1.N) (hf : (cfg1.win 3).flush t = true) :
    (dat1 V c).flushed 3 t
      = ((cfg1.win 3).blk t).view.read (Elt F) (lossBlock (V c main_v49) (V c main_v56) (V c main_v63)) := by
  show (cfg1.win 3).cut (grid1.coords t) ((dat1 V c).after 3 t) = _
  rw [after1_3]
  have h8 := point_lt t
  have h7 : t.val = 7 := by have := (flush1_3 t).mp hf; omega
  obtain ⟨-, -, -, p3, q3⟩ := block_of_point1 t
  obtain ⟨n, hn⟩ := t
  change n = 7 at h7
  subst h7
  rw [accAt_eq V c 7 hn]
  funext j
  show lossBlock (V c main_v49) (V c main_v56) (V c main_v63) _ = lossBlock (V c main_v49) (V c main_v56) (V c main_v63) _
  refine congrArg (lossBlock (V c main_v49) (V c main_v56) (V c main_v63)) ?_
  funext a; apply Fin.ext
  match a with
  | ⟨0, _⟩ => show (j 0).val = win1_3.index ⟨7, hn⟩ (0 : Fin 2) * 1 + 1 * (j 0).val; omega
  | ⟨1, _⟩ => show (j 1).val = win1_3.index ⟨7, hn⟩ (1 : Fin 2) * 1 + 1 * (j 1).val; omega

/-- An index of the [1, 1] array lies in point t's block exactly when, on each axis, its coordinate lies in the block's
    range there. -/
theorem mem_block3 (t : Fin cfg1.N) (i : S1x1.Idx) :
    i ∈ ((cfg1.win 3).blk t).view.set
      ↔ ∀ a : Fin 2, win1_3.index t a * S1x1.size a ≤ (i a).val ∧ (i a).val < win1_3.index t a * S1x1.size a + S1x1.size a := by
  show i ∈ ((View.whole main_v64).slice (win1_3.rect t)).set ↔ _
  rw [View.set_slice_whole, Rect.mem_set_unit]
  exact Iff.rfl

/-- The one index of the [1, 1] array is in the last point's block, and the last point writes back. -/
theorem last_point_covers (i : S1x1.Idx) :
    ∃ t : Fin cfg1.N, (cfg1.win 3).flush t = true ∧ i ∈ ((cfg1.win 3).blk t).view.set := by
  have hN : grid1.N = 8 := N_1
  have ht : 7 < cfg1.N := by show 7 < grid1.N; omega
  have hi0 : (i 0).val < 1 := (i 0).isLt
  have hi1 : (i 1).val < 1 := (i 1).isLt
  obtain ⟨-, -, -, p3, q3⟩ := block_of_point1 ⟨7, ht⟩
  refine ⟨⟨7, ht⟩, (flush1_3 _).mpr rfl, ?_⟩
  rw [mem_block3]
  intro a
  match a with
  | ⟨0, _⟩ =>
    show win1_3.index ⟨7, ht⟩ (0 : Fin 2) * 1 ≤ (i 0).val ∧ (i 0).val < win1_3.index ⟨7, ht⟩ (0 : Fin 2) * 1 + 1
    omega
  | ⟨1, _⟩ =>
    show win1_3.index ⟨7, ht⟩ (1 : Fin 2) * 1 ≤ (i 1).val ∧ (i 1).val < win1_3.index ⟨7, ht⟩ (1 : Fin 2) * 1 + 1
    omega

/-- After the region the [1, 1] result array holds the loss of the three arrays the region found. -/
theorem bpr_final (c : Dev nD) :
    (dat1 (F := F) V c).arrAt 3 cfg1.N = lossBlock (V c main_v49) (V c main_v56) (V c main_v63) :=
  (dat1 V c).arrAt_eq_of_cover 3 _ (fun t hf => flushed3_eq V c t hf) last_point_covers

end Cert.KernelIdeal.Hand

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.LossPoint.lean ====
/-
  The softplus both programs spell, on the extended reals, and the three float constants they use.

  The kernel writes softplus(x) as a select on "x - 0 is ordered and differs from itself" between x + 0 and
  max(x, 0) + log1p(exp(0 - |x - 0|)); the reference writes the same select on "x - 0 is unordered or differs from
  itself" with the exponent spelt -(|x - 0|). On the extended reals nothing differs from itself, so both are the second
  branch, max(x, 0) + log(1 + e^(-|x|)), at every x, the infinities included.
-/
import Idealize.ShloMosaic.PureOps.Ideal.Laws
import Idealize.ShloMosaic.Lib.ValueIdx

noncomputable section

namespace Cert.LossValue

open Idealize.ShloMosaic Idealize.ShloMosaic.ValueIdx

/-- softplus on the extended reals: max(x, 0) + log(1 + e^(-|x|)), with |x| = max(x, -x). -/
def sp (x : EReal) : EReal := max x 0 + Ideal.log1p (Ideal.exp (-(max x (-x))))

/-- The kernel's spelling at one element, over the value z of its zero constant. -/
def spKer (z x : EReal) : EReal :=
  Scalar.select (Ideal.cmp .one (x - z) (x - z)) (x + z)
    (max x z + Ideal.log1p (Ideal.exp (z - max (x - z) (-(x - z)))))

/-- The reference's spelling at one element, over the value z of its zero constant. -/
def spRef (z x : EReal) : EReal :=
  Scalar.select (Ideal.cmp .une (x - z) (x - z)) (x + z)
    (max x z + Ideal.log1p (Ideal.exp (-(max (x - z) (-(x - z))))))

/-- No extended real differs from itself: the ordered "not equal" comparison of x with x is the bit 0. -/
theorem cmp_one_self (x : EReal) : Ideal.cmp .one x x = 0#1 := by
  simp [Ideal.cmp]

/-- The unordered "not equal" comparison of x with x is the bit 0 as well. -/
theorem cmp_une_self (x : EReal) : Ideal.cmp .une x x = 0#1 := by
  simp [Ideal.cmp]

/-- The kernel's spelling over the constant 0 is softplus. -/
theorem spKer_zero (x : EReal) : spKer 0 x = sp x := by
  unfold spKer sp
  rw [cmp_one_self, select_zero, sub_zero, zero_sub]

/-- The reference's spelling over the constant 0 is softplus. -/
theorem spRef_zero (x : EReal) : spRef 0 x = sp x := by
  unfold spRef sp
  rw [cmp_une_self, select_zero, sub_zero]

/-- Row r of a triple of [a, 64] arrays: (Σ_d U r d · N r d) − (Σ_d U r d · P r d). -/
def rowDiff {a : ℕ} (U P N : FVec Ideal ⟨2, ![a, 64]⟩ .f32) (r : Fin a) : EReal :=
  (∑ d : Fin 64, U (ix2 r d) * N (ix2 r d)) - ∑ d : Fin 64, U (ix2 r d) * P (ix2 r d)

/-- The word 0x45800000 denotes 4096. -/
theorem ofBits_4096 : Ideal.ofBits .f32 0x45800000#32 = ((4096 : ℝ) : EReal) := by
  simp [Ideal.ofBits, Ideal.ieee, -EReal.coe_mul]; norm_num

/-- The word 0x39800000 denotes 1/4096 = 2^-12. -/
theorem ofBits_inv4096 : Ideal.ofBits .f32 0x39800000#32 = ((1 / 4096 : ℝ) : EReal) := by
  simp [Ideal.ofBits, Ideal.ieee, -EReal.coe_mul]; norm_num

/-- Dividing by the word 4096 is multiplying by the word 2^-12, on every extended real. -/
theorem div_4096 (x : EReal) :
    Ideal.div x (Ideal.ofBits .f32 0x45800000#32) = x * Ideal.ofBits .f32 0x39800000#32 := by
  rw [ofBits_4096, ofBits_inv4096, Ideal.div_coe (by norm_num : (4096 : ℝ) ≠ 0)]

end Cert.LossValue

end
-- ==== Proof.LossKernel.lean ====
/-
  The loss kernel's accumulator read at its one index, on the extended reals.

  One grid point adds to the incoming [1, 1] accumulator the sum, over the 512 rows of its block, of softplus of the
  row's (users · negatives) − (users · items), each a sum over the 64 columns. Starting from the zero the first point
  stores, after the eight points the accumulator is the sum over all 4096 rows, taken block by block.
-/
import proofs.«160565_j73220602462343_1_alg».proof.Proof.KI.Core
import proofs.«160565_j73220602462343_1_alg».proof.Proof.LibKeepdims
import proofs.«160565_j73220602462343_1_alg».proof.Proof.LossPoint
import Idealize.ShloMosaic.Lib.Pipeline.Value

noncomputable section

namespace Cert.LossValue

open Idealize.ShloMosaic Idealize.ShloMosaic.ValueIdx Cert.KernelIdeal Cert.KernelIdeal.Gen Cert.KernelIdeal.Hand

/-- Row r of a column reached through the index a reduction along the column inserts. -/
theorem lift_col {a : ℕ} (h : Shape.Reduces ⟨2, ![a, 1]⟩ [0] ⟨1, ![1]⟩) (r : Fin a) :
    h.lift (ix1 (0 : Fin 1)) r = ix2 r (0 : Fin 1) :=
  funext fun d => Fin.ext (by match d with | ⟨0, _⟩ => rfl | ⟨1, _⟩ => rfl)

/-- On the extended reals the sum of a column [a, 1] down its rows, at its one index, is the sum of the entries. -/
theorem colSum_apply {φ : FTy} {a : ℕ} (v : FVec Ideal ⟨2, ![a, 1]⟩ φ) (acc : BitVec φ.bits)
    (h : Shape.Reduces ⟨2, ![a, 1]⟩ [0] ⟨1, ![1]⟩) (hφ : FKind.Formats φ) (hacc : acc = FKind.add.neutral φ hφ) :
    multiReduction .add [0] ⟨1, ![1]⟩ v acc h hφ hacc (ix1 (0 : Fin 1)) = ∑ r : Fin a, v (ix2 r (0 : Fin 1)) :=
  (Ideal.multiReduction_add_single v acc h hφ hacc (ix1 (0 : Fin 1))).trans
    (Finset.sum_congr rfl fun r _ => congrArg v (lift_col h r))

/-- The kernel's softplus term over a whole array, read at an index, is its spelling at that element. -/
theorem softplusKer_apply {s : Shape} (z : Ideal .f32) (x : FVec Ideal s .f32) (i : s.Idx) :
    select (cmpf .one (subf x (broadcast s z)) (subf x (broadcast s z))) (addf x (broadcast s z))
        (addf (maximumf x (broadcast s z)) (log1p (exp (subf (broadcast s z) (absf (subf x (broadcast s z))))))) i
      = spKer z (x i) := rfl

/-- A row sum kept as a column: at (r, 0) the sum of row r's products. -/
theorem rowDot_apply {a : ℕ} (U V : FVec Ideal ⟨2, ![a, 64]⟩ .f32) (acc : BitVec 32)
    (h : Shape.Reduces ⟨2, ![a, 64]⟩ [1] ⟨1, ![a]⟩) (hφ : FKind.Formats .f32) (hacc : acc = FKind.add.neutral .f32 hφ)
    (hc : (⟨1, ![a]⟩ : Shape).ShapeCasts ⟨2, ![a, 1]⟩) (r : Fin a) :
    shapeCast ⟨2, ![a, 1]⟩ (multiReduction .add [1] ⟨1, ![a]⟩ (mulf U V) acc h hφ hacc) hc (ix2 r (0 : Fin 1))
      = ∑ d : Fin 64, U (ix2 r d) * V (ix2 r d) :=
  (Cert.Keepdims.shapeCast_a_a1_apply _ hc r 0).trans (Cert.Keepdims.rowSum_apply (mulf U V) acc h hφ hacc r)

/-- One grid point's payload at (0, 0): the incoming accumulator plus the block's sum of softplus of the row differences. -/
theorem pay3_apply (U P N : Vec Ideal S512x64 .f32) (acc : Vec Ideal S1x1 .f32) :
    k1_pay3 (F := Ideal) U P N acc (ix2 (0 : Fin 1) (0 : Fin 1))
      = acc (ix2 (0 : Fin 1) (0 : Fin 1)) + ∑ r : Fin 512, sp (rowDiff U P N r) := by
  unfold k1_pay3
  simp only [shapeCast_self]
  refine congrArg (fun t => acc (ix2 (0 : Fin 1) (0 : Fin 1)) + t) ?_
  refine (Cert.Keepdims.shapeCast_a_a1_apply _ _ (0 : Fin 1) (0 : Fin 1)).trans ?_
  refine (colSum_apply _ _ _ _ _).trans ?_
  refine Finset.sum_congr rfl fun r _ => ?_
  refine (softplusKer_apply _ _ _).trans ?_
  refine (congrArg (fun z => spKer z _) Ideal.ofBits_zero_f32).trans ?_
  refine (spKer_zero _).trans (congrArg sp ?_)
  refine (subf_apply _ _ _).trans ?_
  exact congrArg₂ (fun s t : EReal => s - t) (rowDot_apply U N _ _ _ _ _ r) (rowDot_apply U P _ _ _ _ _ r)

/-- The first point's stored zero, at (0, 0), is 0. -/
theorem pay2_apply : k1_pay2 (F := Ideal) (ix2 (0 : Fin 1) (0 : Fin 1)) = 0 := by
  unfold k1_pay2
  simp only [shapeCast_self]
  exact Ideal.ofBits_zero_f32

/-- A block of rows read at (r, d): row 512·t + r of the whole array. -/
theorem rowsBlock_apply (x : Vec Ideal S4096x64 .f32) (t : ℕ) (ht : t < 8) (r : Fin 512) (d : Fin 64) :
    rowsBlock x t ht (ix2 r d) = x (ix2 (⟨512 * t + r.val, by have := r.isLt; omega⟩ : Fin 4096) d) := rfl

/-- The row differences of a block are those of the whole arrays at the block's rows. -/
theorem rowDiff_rowsBlock (u p n : Vec Ideal S4096x64 .f32) (t : ℕ) (ht : t < 8) (r : Fin 512) :
    rowDiff (rowsBlock u t ht) (rowsBlock p t ht) (rowsBlock n t ht) r
      = rowDiff u p n (⟨512 * t + r.val, by have := r.isLt; omega⟩ : Fin 4096) := rfl

/-- Block t's sum, over its 512 rows, of softplus of the row differences of the whole arrays. -/
def tileSum (u p n : FVec Ideal ⟨2, ![4096, 64]⟩ .f32) (t : Fin 8) : EReal :=
  ∑ r : Fin 512, sp (rowDiff u p n (⟨512 * t.val + r.val, by have := t.isLt; have := r.isLt; omega⟩ : Fin 4096))

/-- The accumulator before any point is 0 at (0, 0). -/
theorem accUpTo_zero (u p n : Vec Ideal S4096x64 .f32) (h : 0 ≤ 8) :
    accUpTo u p n 0 h (ix2 (0 : Fin 1) (0 : Fin 1)) = 0 := pay2_apply

/-- Each point adds its block's sum. -/
theorem accUpTo_succ (u p n : Vec Ideal S4096x64 .f32) (k : ℕ) (hk : k + 1 ≤ 8) :
    accUpTo u p n (k + 1) hk (ix2 (0 : Fin 1) (0 : Fin 1))
      = accUpTo u p n k (by omega) (ix2 (0 : Fin 1) (0 : Fin 1)) + tileSum u p n ⟨k, by omega⟩ := by
  show k1_pay3 (F := Ideal) (rowsBlock u k (by omega)) (rowsBlock p k (by omega)) (rowsBlock n k (by omega))
      (accUpTo u p n k (by omega)) (ix2 (0 : Fin 1) (0 : Fin 1)) = _
  refine (pay3_apply _ _ _ _).trans (congrArg (fun t => accUpTo u p n k (by omega) (ix2 (0 : Fin 1) (0 : Fin 1)) + t) ?_)
  exact Finset.sum_congr rfl fun r _ => congrArg sp (rowDiff_rowsBlock u p n k (by omega) r)

/-- After k points the accumulator is the sum of the first k block sums. -/
theorem accUpTo_eq_range (u p n : Vec Ideal S4096x64 .f32) : ∀ (k : ℕ) (hk : k ≤ 8),
    accUpTo u p n k hk (ix2 (0 : Fin 1) (0 : Fin 1))
      = ∑ i ∈ Finset.range k, (if h : i < 8 then tileSum u p n ⟨i, h⟩ else 0)
  | 0, hk => by rw [Finset.range_zero, Finset.sum_empty]; exact accUpTo_zero u p n hk
  | k + 1, hk => by
    rw [Finset.sum_range_succ, accUpTo_succ u p n k hk, accUpTo_eq_range u p n k (by omega),
      dif_pos (by omega : k < 8)]

/-- After all eight points: the sum of the eight block sums. -/
theorem accUpTo_eight (u p n : Vec Ideal S4096x64 .f32) :
    accUpTo u p n 8 le_rfl (ix2 (0 : Fin 1) (0 : Fin 1)) = ∑ t : Fin 8, tileSum u p n t := by
  rw [accUpTo_eq_range u p n 8 le_rfl,
    ← Fin.sum_univ_eq_sum_range (fun i => if h : i < 8 then tileSum u p n ⟨i, h⟩ else 0) 8]
  exact Finset.sum_congr rfl fun t _ => dif_pos t.isLt

/-- What the last point writes, at (0, 0): the eight block sums' sum times the word 2^-12. -/
theorem lossBlock_apply (u p n : Vec Ideal S4096x64 .f32) :
    lossBlock (F := Ideal) u p n (ix2 (0 : Fin 1) (0 : Fin 1))
      = (∑ t : Fin 8, tileSum u p n t) * Ideal.ofBits .f32 0x39800000#32 :=
  congrArg (fun a => a * Ideal.ofBits .f32 0x39800000#32) (accUpTo_eight u p n)

end Cert.LossValue

end
-- ==== Proof.LossRef.lean ====
/-
  The reference's loss read at its one index, on the extended reals.

  The reference sums, over the 4096 rows of the batch, softplus of the row's (users · negatives) − (users · items), each
  a sum over the 64 columns and each host sum started from the constant 0, and divides the total by 4096.
-/
import proofs.«160565_j73220602462343_1_alg».proof.Proof.Spec
import proofs.«160565_j73220602462343_1_alg».proof.Proof.LibKeepdims
import proofs.«160565_j73220602462343_1_alg».proof.Proof.LossPoint

noncomputable section

namespace Cert.LossValue

open Idealize.ShloMosaic Idealize.ShloMosaic.ValueIdx Cert.ReferenceIdeal Cert.ReferenceIdeal.Gen

/-- A host quotient at an index is the quotient of the elements. -/
theorem hostDivf_apply {s : Shape} {φ : FTy} (a b : FVec Ideal s φ) (i : s.Idx) :
    Host.divf a b i = Ideal.div (a i) (b i) := rfl

/-- The reference's softplus term over a whole array, read at an index, is its spelling at that element. -/
theorem softplusRef_apply {s : Shape} (c x : FVec Ideal s .f32) (i : s.Idx) :
    select (cmpf .une (subf x c) (subf x c)) (addf x c)
        (addf (maximumf x c) (Host.log1p (Host.exp (Host.negf (Host.absf (subf x c)))))) i
      = spRef (c i) (x i) := rfl

/-- A rank-1 index set is its coordinate's range … -/
def idxEquiv1 {a : ℕ} : (⟨1, ![a]⟩ : Shape).Idx ≃ Fin a where
  toFun i := i 0
  invFun k := ix1 k
  left_inv i := (eq_ix1 i).symm
  right_inv _ := rfl

/-- … so a sum over it is the sum over the coordinate. -/
theorem sum_idx1 {M : Type*} [AddCommMonoid M] {a : ℕ} (f : (⟨1, ![a]⟩ : Shape).Idx → M) :
    ∑ i, f i = ∑ k : Fin a, f (ix1 k) := by
  rw [← Equiv.sum_comp (idxEquiv1 (a := a)).symm f]
  rfl

/-- A host sum of a vector to a scalar from the constant 0: the sum of the entries. -/
theorem hostSumAll_apply {a : ℕ} (x : FVec Ideal ⟨1, ![a]⟩ .f32) (h' : Shape.ReducesTo ⟨1, ![a]⟩ [0] ⟨0, ![]⟩)
    (hu : 0 < (⟨0, ![]⟩ : Shape).numel) (j : (⟨0, ![]⟩ : Shape).Idx) :
    Host.reduceAdd (F := Ideal) x (constant (F := Ideal) ⟨0, ![]⟩ .f32 0x00000000#32) h' hu j = ∑ k : Fin a, x (ix1 k) := by
  refine (Ideal.hostReduceAdd_total h' (fun b => b.elim0) x _ j).trans ?_
  refine (congrArg (fun z : EReal => z + _) Ideal.ofBits_zero_f32).trans ((zero_add _).trans ?_)
  exact sum_idx1 x

/-- A host sum along the rows of a product from the constant 0, at row r: the sum of the row's products. -/
theorem hostRowDot_apply {a : ℕ} (U V : FVec Ideal ⟨2, ![a, 64]⟩ .f32) (h' : Shape.ReducesTo ⟨2, ![a, 64]⟩ [1] ⟨1, ![a]⟩)
    (h : Shape.Reduces ⟨2, ![a, 64]⟩ [1] ⟨1, ![a]⟩) (hu : 0 < (⟨0, ![]⟩ : Shape).numel) (r : Fin a) :
    Host.reduceAdd (F := Ideal) (mulf U V) (constant (F := Ideal) ⟨0, ![]⟩ .f32 0x00000000#32) h' hu (ix1 r)
      = ∑ d : Fin 64, U (ix2 r d) * V (ix2 r d) := by
  refine (Ideal.hostReduceAdd_single h' h (mulf U V) _ (ix1 r)).trans ?_
  refine (congrArg (fun z : EReal => z + _) Ideal.ofBits_zero_f32).trans ((zero_add _).trans ?_)
  exact Finset.sum_congr rfl fun d _ => congrArg (mulf U V) (Cert.Keepdims.lift_row h r d)

/-- The reference's loss at its one index: the sum over the 4096 rows of softplus of the row differences, over 4096. -/
theorem refLoss_apply (u p n : FVec Ideal S4096x64 .f32) (j : S_.Idx) :
    Cert.Spec.refLoss (F := Ideal) u p n j
      = Ideal.div (∑ k : Fin 4096, sp (rowDiff u p n k)) (Ideal.ofBits .f32 0x45800000#32) := by
  unfold Cert.Spec.refLoss
  refine (hostDivf_apply _ _ j).trans (congrArg (fun s => Ideal.div s (Ideal.ofBits .f32 0x45800000#32)) ?_)
  refine (hostSumAll_apply _ _ _ j).trans ?_
  refine Finset.sum_congr rfl fun k _ => ?_
  refine (softplusRef_apply _ _ _).trans ?_
  refine (congrArg (fun z => spRef z _) Ideal.ofBits_zero_f32).trans ?_
  refine (spRef_zero _).trans (congrArg sp ?_)
  refine (subf_apply _ _ _).trans ?_
  exact congrArg₂ (fun s t : EReal => s - t) (hostRowDot_apply u n _ (by decide) _ k)
    (hostRowDot_apply u p _ (by decide) _ k)

end Cert.LossValue

end
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.Loss.lean ====
/-
  The reference's loss equals what the kernel's last grid point writes, on the extended reals.

  Both are the sum over the 4096 rows of softplus of (users · negatives) − (users · items), scaled by 1/4096: the
  reference takes one sum over all rows and divides by 4096, the kernel takes eight block sums of 512 rows each, adds
  them in turn from zero and multiplies by 2^-12. A sum of 8 · 512 terms is the sum of its eight tiles' sums, and
  division by 4096 is multiplication by 2^-12 at every extended real.
-/
import proofs.«160565_j73220602462343_1_alg».proof.Proof.LossKernel
import proofs.«160565_j73220602462343_1_alg».proof.Proof.LossRef
import proofs.«160565_j73220602462343_1_alg».proof.Proof.LibTileSum

noncomputable section

namespace Cert.LossValue

open Idealize.ShloMosaic Idealize.ShloMosaic.ValueIdx

/-- The reference's loss of three [4096, 64] row batches, at its one index, is the kernel's [1, 1] output at (0, 0). -/
theorem loss_eq (u p n : FVec Ideal Cert.KernelIdeal.S4096x64 .f32) (j : Cert.ReferenceIdeal.S_.Idx) :
    Cert.Spec.refLoss (F := Ideal) u p n j
      = Cert.KernelIdeal.Hand.lossBlock (F := Ideal) u p n (ValueIdx.ix2 (0 : Fin 1) (0 : Fin 1)) := by
  rw [refLoss_apply, lossBlock_apply, div_4096]
  refine congrArg (fun s => s * Ideal.ofBits .f32 0x39800000#32) ?_
  exact Cert.LibTileSum.sum_tiles_mul 8 512 (fun k : Fin 4096 => sp (rowDiff u p n k))

end Cert.LossValue

end
-- ==== Proof.Light.lean ====
/-
  Two small facts that join the kernels' arithmetic to the reference's on the extended reals: multiplying by the word of
  0.25 is dividing by the word of 4 (so the averaging kernel's table is the reference's average, entry by entry), and a
  [1, 1] array re-laid as a scalar holds its one entry.
-/
import proofs.«160565_j73220602462343_1_alg».proof.Proof.KI.Core
import proofs.«160565_j73220602462343_1_alg».proof.Proof.Spec
import Idealize.ShloMosaic.Lib.Pipeline.Value
import Idealize.ShloMosaic.Lib.ValueIdx

noncomputable section

namespace Cert.Bridge

open Idealize.ShloMosaic Idealize.ShloMosaic.ValueIdx

/-- The word 0x40800000 denotes 4. -/
theorem ofBits_4 : Ideal.ofBits .f32 0x40800000#32 = ((4 : ℝ) : EReal) := by
  simp [Ideal.ofBits, Ideal.ieee, -EReal.coe_mul]; norm_num

/-- The word 0x3E800000 denotes 1/4. -/
theorem ofBits_quarter : Ideal.ofBits .f32 0x3E800000#32 = ((1 / 4 : ℝ) : EReal) := by
  simp [Ideal.ofBits, Ideal.ieee, -EReal.coe_mul]; norm_num

/-- Dividing by the word 4 is multiplying by the word 0.25, on every extended real. -/
theorem div_4 (x : EReal) :
    Ideal.div x (Ideal.ofBits .f32 0x40800000#32) = x * Ideal.ofBits .f32 0x3E800000#32 := by
  rw [ofBits_4, ofBits_quarter, Ideal.div_coe (by norm_num : (4 : ℝ) ≠ 0)]

/-- The averaging kernel's table is the reference's average of the four tables. -/
theorem light_eq (x0 x1 x2 x3 : FVec Ideal Cert.KernelIdeal.S150000x64 .f32) :
    Cert.KernelIdeal.Hand.light4 (F := Ideal) x0 x1 x2 x3 = Cert.Spec.lightR (F := Ideal) x0 x1 x2 x3 := by
  funext j
  show (((x0 j + x1 j) + x2 j) + x3 j) * Ideal.ofBits .f32 0x3E800000#32
    = Ideal.div (((x0 j + x1 j) + x2 j) + x3 j) (Ideal.ofBits .f32 0x40800000#32)
  exact (div_4 _).symm

/-- A [1, 1] array re-laid as a scalar holds its one entry. -/
theorem scalar_of_1x1 {α : Type} (X : Cert.KernelIdeal.S1x1.Idx → α) (h : Cert.KernelIdeal.S1x1.ShapeCasts Cert.KernelIdeal.S_)
    (j : Cert.KernelIdeal.S_.Idx) : shapeCast Cert.KernelIdeal.S_ X h j = X (ix2 (0 : Fin 1) (0 : Fin 1)) := by
  refine shapeCast_apply X h j (ix2 (0 : Fin 1) (0 : Fin 1)) ?_
  have h1 := (Cert.KernelIdeal.S1x1.rowMajor (ix2 (0 : Fin 1) (0 : Fin 1))).isLt
  have h2 := (Cert.KernelIdeal.S_.rowMajor j).isLt
  have e1 : Cert.KernelIdeal.S1x1.numel = 1 := rfl
  have e2 : Cert.KernelIdeal.S_.numel = 1 := rfl
  omega

end Cert.Bridge

end
-- ==== Proof.Bridge.lean ====
/-
  The kernel program's result is the reference's, on the extended reals.

  The kernel program runs three stretches of host operations with the two kernel regions between them. Followed
  backwards from its scalar result: the closing reshape reads the one entry of the loss region's [1, 1] output; that
  output is the loss kernel's arithmetic of the three row batches the region was entered with, which equals the
  reference's loss of the same batches; the batches are picked, by the host lines between the two regions, from the
  averaging region's result table and the launch's index arguments; that table is the averaging kernel's arithmetic of
  the four tables the first region was entered with, which equals the reference's average; and the four tables are the
  concatenated embedding table and one, two, three sparse steps of it over the launch's arguments. Each of these
  steps is one of the reference's named host steps applied to the launch's arguments, so the whole is the reference's
  result of the eight arguments.
-/
import proofs.«160565_j73220602462343_1_alg».proof.Proof.KI.MainRun
import proofs.«160565_j73220602462343_1_alg».proof.Proof.KI.HostValues
import proofs.«160565_j73220602462343_1_alg».proof.Proof.KI.Sum4Value
import proofs.«160565_j73220602462343_1_alg».proof.Proof.KI.BprValue
import proofs.«160565_j73220602462343_1_alg».proof.Proof.Loss
import proofs.«160565_j73220602462343_1_alg».proof.Proof.Light

noncomputable section

namespace Cert.Bridge

open Idealize.ShloMosaic Idealize.ShloMosaic.TcCoe Idealize.SL.Sem Idealize.ShloMosaic.ValueIdx
open Cert.KernelIdeal Cert.KernelIdeal.Hand

/-- The reference's averaged table of the five table-building arguments: the average of the concatenated table and of
    one, two and three sparse steps of it. -/
def tableOf (a0 a1 : Cert.Spec.TI Ideal Cert.ReferenceIdeal.S3200000) (a2 : Cert.Spec.TF Ideal Cert.ReferenceIdeal.S3200000)
    (a3 : Cert.Spec.TF Ideal Cert.ReferenceIdeal.S100000x64) (a4 : Cert.Spec.TF Ideal Cert.ReferenceIdeal.S50000x64) :
    Cert.Spec.TF Ideal Cert.ReferenceIdeal.S150000x64 :=
  Cert.Spec.lightR (Cert.Spec.emb0 a3 a4) (Cert.Spec.hop a0 a1 a2 (Cert.Spec.emb0 a3 a4))
    (Cert.Spec.hop a0 a1 a2 (Cert.Spec.hop a0 a1 a2 (Cert.Spec.emb0 a3 a4)))
    (Cert.Spec.hop a0 a1 a2 (Cert.Spec.hop a0 a1 a2 (Cert.Spec.hop a0 a1 a2 (Cert.Spec.emb0 a3 a4))))

/-- The reference's result is its loss of the three batches picked from that table. -/
theorem refResult_eq (a0 a1 : Cert.Spec.TI Ideal Cert.ReferenceIdeal.S3200000) (a2 : Cert.Spec.TF Ideal Cert.ReferenceIdeal.S3200000)
    (a3 : Cert.Spec.TF Ideal Cert.ReferenceIdeal.S100000x64) (a4 : Cert.Spec.TF Ideal Cert.ReferenceIdeal.S50000x64)
    (a5 a6 a7 : Cert.Spec.TI Ideal Cert.ReferenceIdeal.S4096) :
    Cert.Spec.refResult a0 a1 a2 a3 a4 a5 a6 a7
      = Cert.Spec.refLoss (Cert.Spec.pickU (tableOf a0 a1 a2 a3 a4) a5) (Cert.Spec.pickI (tableOf a0 a1 a2 a3 a4) a6)
          (Cert.Spec.pickI (tableOf a0 a1 a2 a3 a4) a7) := rfl

section Run
variable (m : (ℓ : Loc nD τ sig) → Buf (Elt Ideal) ℓ) (ρ : Dev nD → PrngReg) (c : Dev nD)

/-- The averaging region's result table is the reference's averaged table of the launch's arguments. -/
theorem table_eq :
    W2 m ρ c (Proc.devRef .tc main_v40)
      = tableOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [W2_main_v40, sum4_final, light_eq, V1_eq m ρ c main_v0, V1_eq m ρ c main_v13, V1_eq m ρ c main_v26, V1_eq m ρ c main_v39,
    host0_v0, host0_v13, host0_v26, host0_v39]
  rfl

/-- The users batch the loss region is entered with. -/
theorem users_eq :
    V3 m ρ c main_v49
      = Cert.Spec.pickU (tableOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          (m ((c.tc : Thread nD τ).loc main_arg5)) := by
  rw [V3_eq m ρ c main_v49, host1_v49, table_eq, W2_main_arg5]

/-- The items batch. -/
theorem items_eq :
    V3 m ρ c main_v56
      = Cert.Spec.pickI (tableOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          (m ((c.tc : Thread nD τ).loc main_arg6)) := by
  rw [V3_eq m ρ c main_v56, host1_v56, table_eq, W2_main_arg6]

/-- The negatives batch. -/
theorem negatives_eq :
    V3 m ρ c main_v63
      = Cert.Spec.pickI (tableOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          (m ((c.tc : Thread nD τ).loc main_arg7)) := by
  rw [V3_eq m ρ c main_v63, host1_v63, table_eq, W2_main_arg7]

/-- The kernel program's scalar result is the reference's result of the launch's eight arguments. -/
theorem value_eq :
    W5 (F := Ideal) m ρ c (Proc.devRef .tc main_v65)
      = Cert.Spec.refResult (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  funext j
  rw [refResult_eq, ← users_eq m ρ c, ← items_eq m ρ c, ← negatives_eq m ρ c]
  rw [Cert.LossValue.loss_eq, ← bpr_final (V3 m ρ) c, ← W4_main_v64 m ρ c]
  rw [W5_eq m ρ c, host2_v65]
  exact scalar_of_1x1 _ _ j

end Run

end Cert.Bridge

end
-- ==== Proof.lean ====
/-
  The certificate of a LightGCN-style step with a BPR loss: the kernel program (host sparse steps, a Pallas kernel that
  averages four [150000, 64] tables, host row picks, a Pallas kernel that accumulates the batch's softplus(neg − pos) over
  eight blocks of 512 rows and scales by 2^-12) against the jnp reference (the same host steps, the average by a division
  by 4, the mean by a division by 4096).

  The frames: the kernel program at both instances runs as five segments (host lines, the averaging region, host lines, the
  loss region, the last host line), each region through its pipeline's proof data and body obligation; the reference's run
  is the run of its list of host operations.
  The value: at the ideal instance the kernel program's result is the last boundary's contents at the result buffer; read
  back through the segments it is the reference's named value — the sparse steps are the same host functions of the same
  arguments on both sides and are never opened; x · 0.25 = x / 4 and x · 2^-12 = x / 4096 hold on every extended real, the
  block sums added in order are the one sum over 4096 rows, and jnp's NaN guard is dead on both sides.
  The idealized kernel program differs from the kernel program in no operation, so the preservation claim is trivial.
-/
import proofs.«160565_j73220602462343_1_alg».proof.Defs
import proofs.«160565_j73220602462343_1_alg».proof.Proof.Gen.Kernel
import proofs.«160565_j73220602462343_1_alg».proof.Proof.Gen.KernelIdeal
import proofs.«160565_j73220602462343_1_alg».proof.Proof.Gen.ReferenceIdeal
import proofs.«160565_j73220602462343_1_alg».proof.Proof.Gen.Pre_finite_inputs
import proofs.«160565_j73220602462343_1_alg».proof.Proof.K.MainRun
import proofs.«160565_j73220602462343_1_alg».proof.Proof.K.Bpr
import proofs.«160565_j73220602462343_1_alg».proof.Proof.KI.MainRun
import proofs.«160565_j73220602462343_1_alg».proof.Proof.KI.Bpr
import proofs.«160565_j73220602462343_1_alg».proof.Proof.RefRun
import proofs.«160565_j73220602462343_1_alg».proof.Proof.Bridge
import Idealize.ShloMosaic.Adequacy
import Idealize.ShloMosaic.Init

noncomputable section

namespace Cert.Proof

open Idealize.ShloMosaic Idealize.ShloMosaic.TcCoe Idealize.SL.Sem

/-- The loss region's facts, at the word-level instance and at the ideal instance. -/
theorem lossFacts_k : Cert.Kernel.Hand.LossRegionFacts (F := Bits) :=
  ⟨Cert.Kernel.Hand.body_obligation1, Cert.Kernel.Hand.hin1, Cert.Kernel.Hand.hout1⟩
theorem lossFacts_ki : Cert.KernelIdeal.Hand.LossRegionFacts (F := Ideal) :=
  ⟨Cert.KernelIdeal.Hand.body_obligation1, Cert.KernelIdeal.Hand.hin1, Cert.KernelIdeal.Hand.hout1⟩

theorem frame_k : Cert.frame_Kernel := fun m ρ _ => Cert.Kernel.Hand.frame lossFacts_k m ρ
theorem frame_ki : Cert.frame_KernelIdeal := fun m ρ _ => Cert.KernelIdeal.Hand.frame lossFacts_ki m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs run; the kernel program's result buffer ends at the last boundary's contents, which is the reference's
    named value of the (agreeing) arguments, where the reference's run ends too. -/
theorem algebraic : Cert.algebraic_KernelIdeal_ReferenceIdeal := by
  intro m ρ m' ρ' _ hagree
  refine ⟨fun c => Cert.KernelIdeal.Hand.W5 (F := Ideal) m ρ c (Proc.devRef .tc Cert.KernelIdeal.main_v65), ?_, ?_⟩
  · exact (θ_run Cert.KernelIdeal.defs _ _).mono
      (fun r (h : ∀ c : Dev Cert.KernelIdeal.nD, ∀ b ∈ Pipeline.ucRefs Cert.KernelIdeal.τ Cert.KernelIdeal.sig,
          r.2.mem ((c : Thread Cert.KernelIdeal.nD Cert.KernelIdeal.τ).1, b) = Cert.KernelIdeal.Hand.W5 m ρ c b) c =>
        ⟨h c _ (Cert.KernelIdeal.Hand.mem_unscoped Cert.KernelIdeal.main_v65 (by decide)),
         (h c _ (Cert.KernelIdeal.Hand.mem_unscoped Cert.KernelIdeal.main_arg0 (by decide))).trans (Cert.KernelIdeal.Hand.W5_main_arg0 m ρ c),
         (h c _ (Cert.KernelIdeal.Hand.mem_unscoped Cert.KernelIdeal.main_arg1 (by decide))).trans (Cert.KernelIdeal.Hand.W5_main_arg1 m ρ c),
         (h c _ (Cert.KernelIdeal.Hand.mem_unscoped Cert.KernelIdeal.main_arg2 (by decide))).trans (Cert.KernelIdeal.Hand.W5_main_arg2 m ρ c),
         (h c _ (Cert.KernelIdeal.Hand.mem_unscoped Cert.KernelIdeal.main_arg3 (by decide))).trans (Cert.KernelIdeal.Hand.W5_main_arg3 m ρ c),
         (h c _ (Cert.KernelIdeal.Hand.mem_unscoped Cert.KernelIdeal.main_arg4 (by decide))).trans (Cert.KernelIdeal.Hand.W5_main_arg4 m ρ c),
         (h c _ (Cert.KernelIdeal.Hand.mem_unscoped Cert.KernelIdeal.main_arg5 (by decide))).trans (Cert.KernelIdeal.Hand.W5_main_arg5 m ρ c),
         (h c _ (Cert.KernelIdeal.Hand.mem_unscoped Cert.KernelIdeal.main_arg6 (by decide))).trans (Cert.KernelIdeal.Hand.W5_main_arg6 m ρ c),
         (h c _ (Cert.KernelIdeal.Hand.mem_unscoped Cert.KernelIdeal.main_arg7 (by decide))).trans (Cert.KernelIdeal.Hand.W5_main_arg7 m ρ c)⟩)
      (Cert.KernelIdeal.Hand.run_all lossFacts_ki m ρ)
  · refine (θ_run Cert.ReferenceIdeal.defs _ _).mono (fun _ h c => ⟨(h c).1.trans ?_, (h c).2⟩)
      (Cert.ReferenceIdeal.Hand.run (F := Ideal) m' ρ')
    unfold Cert.ReferenceIdeal.Hand.refOf
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Bridge.value_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
